-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg25 : FVec F S64 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg25
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  main_v108

def fn_part5 {F : FTy → Type} [FloatOps F] (main_arg22 : FVec F S128 .f32) (main_arg23 : FVec F S128 .f32) (main_arg24 : FVec F S128x64 .f32) (main_arg25 : FVec F S64 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg22
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg24
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S256x256 .f32) (main_arg19 : FVec F S256 .f32) (main_arg20 : FVec F S512x128 .f32) (main_arg21 : FVec F S128 .f32) (main_arg22 : FVec F S128 .f32) (main_arg23 : FVec F S128 .f32) (main_arg24 : FVec F S128x64 .f32) (main_arg25 : FVec F S64 .f32) (main_v63 : IVec S_ 1) (main_v67 : IVec S_ 1) : IVec S_ 1 :=
  let main_v68 : IVec S_ 1 := andi main_v63 main_v67
  let main_v69 : FVec F S256x256 .f32 := Host.absf main_arg18
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S512x128 .f32 := Host.absf main_arg20
  let main_cst_30 : FVec F S_ .f32 := constant S_ .f32 0x7F800000#32
  let main_v80 : FVec F S512x128 .f32 := broadcastInDim S512x128 ![] bcast_S_S512x128 main_cst_30
  let main_v81 : IVec S512x128 1 := cmpf .olt main_v79 main_v80
  let main_c_31 : IVec S_ 1 := constantI S_ 1 1#1
  let main_v82 : IVec S_ 1 := (fun x v => Host.reduce IntOp.andi x v reducesTo_S512x128_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S128x256 .f32) (main_arg16 : FVec F S256 .f32) (main_arg17 : FVec F S256x256 .f32) (main_arg18 : FVec F S256x256 .f32) (main_arg19 : FVec F S256 .f32) (main_arg20 : FVec F S512x128 .f32) (main_arg21 : FVec F S128 .f32) (main_arg22 : FVec F S128 .f32) (main_arg23 : FVec F S128 .f32) (main_arg24 : FVec F S128x64 .f32) (main_arg25 : FVec F S64 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128x256 .f32 := Host.absf main_arg15
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg17
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S256x256 .f32) (main_arg12 : FVec F S256x256 .f32) (main_arg13 : FVec F S256 .f32) (main_arg14 : FVec F S128x256 .f32) (main_arg15 : FVec F S128x256 .f32) (main_arg16 : FVec F S256 .f32) (main_arg17 : FVec F S256x256 .f32) (main_arg18 : FVec F S256x256 .f32) (main_arg19 : FVec F S256 .f32) (main_arg20 : FVec F S512x128 .f32) (main_arg21 : FVec F S128 .f32) (main_arg22 : FVec F S128 .f32) (main_arg23 : FVec F S128 .f32) (main_arg24 : FVec F S128x64 .f32) (main_arg25 : FVec F S64 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg14
  let main_cst_18 : FVec F S_ .f32 := constant S_ .f32 0x7F800000#32
  let main_v50 : FVec F S128x256 .f32 := broadcastInDim S128x256 ![] bcast_S_S128x256 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S128x256 .f32) (main_arg15 : FVec F S128x256 .f32) (main_arg16 : FVec F S256 .f32) (main_arg17 : FVec F S256x256 .f32) (main_arg18 : FVec F S256x256 .f32) (main_arg19 : FVec F S256 .f32) (main_arg20 : FVec F S512x128 .f32) (main_arg21 : FVec F S128 .f32) (main_arg22 : FVec F S128 .f32) (main_arg23 : FVec F S128 .f32) (main_arg24 : FVec F S128x64 .f32) (main_arg25 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x128 .f32) (main_arg1 : IVec S600000 32) (main_arg2 : IVec S600000 32) (main_arg3 : IVec S800000 32) (main_arg4 : IVec S800000 32) (main_arg5 : FVec F S128x256 .f32) (main_arg6 : FVec F S128x256 .f32) (main_arg7 : FVec F S256 .f32) (main_arg8 : FVec F S256x256 .f32) (main_arg9 : FVec F S256x256 .f32) (main_arg10 : FVec F S256 .f32) (main_arg11 : FVec F S256x256 .f32) (main_arg12 : FVec F S256x256 .f32) (main_arg13 : FVec F S256 .f32) (main_arg14 : FVec F S128x256 .f32) (main_arg15 : FVec F S128x256 .f32) (main_arg16 : FVec F S256 .f32) (main_arg17 : FVec F S256x256 .f32) (main_arg18 : FVec F S256x256 .f32) (main_arg19 : FVec F S256 .f32) (main_arg20 : FVec F S512x128 .f32) (main_arg21 : FVec F S128 .f32) (main_arg22 : FVec F S128 .f32) (main_arg23 : FVec F S128 .f32) (main_arg24 : FVec F S128x64 .f32) (main_arg25 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg5
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x128 : Shape := ⟨2, ![50000, 128]⟩
abbrev S600000 : Shape := ⟨1, ![600000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S600000x1 : Shape := ⟨2, ![600000, 1]⟩
abbrev S800000x1 : Shape := ⟨2, ![800000, 1]⟩
abbrev S600000x128 : Shape := ⟨2, ![600000, 128]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩
abbrev S800000x128 : Shape := ⟨2, ![800000, 128]⟩
abbrev S800000x256 : Shape := ⟨2, ![800000, 256]⟩
abbrev S50000x512 : Shape := ⟨2, ![50000, 512]⟩
abbrev S1x128 : Shape := ⟨2, ![1, 128]⟩
abbrev S2000x512 : Shape := ⟨2, ![2000, 512]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 161
  | .vmem => 61
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S800000, .i32⟩
  | 4 => ⟨S800000, .i32⟩
  | 5 => ⟨S128x256, .f32⟩
  | 6 => ⟨S128x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S128x256, .f32⟩
  | 15 => ⟨S128x256, .f32⟩
  | 16 => ⟨S256, .f32⟩
  | 17 => ⟨S256x256, .f32⟩
  | 18 => ⟨S256x256, .f32⟩
  | 19 => ⟨S256, .f32⟩
  | 20 => ⟨S512x128, .f32⟩
  | 21 => ⟨S128, .f32⟩
  | 22 => ⟨S128, .f32⟩
  | 23 => ⟨S128, .f32⟩
  | 24 => ⟨S128x64, .f32⟩
  | 25 => ⟨S64, .f32⟩
  | 26 => ⟨S_, .f32⟩
  | 27 => ⟨S600000, .f32⟩
  | 28 => ⟨S_, .f32⟩
  | 29 => ⟨S50000, .f32⟩
  | 30 => ⟨S600000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S800000, .f32⟩
  | 37 => ⟨S_, .f32⟩
  | 38 => ⟨S50000, .f32⟩
  | 39 => ⟨S800000x1, .i32⟩
  | 40 => ⟨S50000, .f32⟩
  | 41 => ⟨S_, .f32⟩
  | 42 => ⟨S50000, .f32⟩
  | 43 => ⟨S50000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S50000x1, .f32⟩
  | 58 => ⟨S50000x128, .f32⟩
  | 59 => ⟨S50000x128, .f32⟩
  | 60 => ⟨S1x256, .f32⟩
  | 61 => ⟨S50000x256, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x256, .f32⟩
  | 71 => ⟨S_, .f32⟩
  | 72 => ⟨S50000x256, .f32⟩
  | 73 => ⟨S600000x1, .i32⟩
  | 74 => ⟨S50000x256, .f32⟩
  | 75 => ⟨S50000x1, .f32⟩
  | 76 => ⟨S50000x256, .f32⟩
  | 77 => ⟨S50000x256, .f32⟩
  | 78 => ⟨S1x256, .f32⟩
  | 79 => ⟨S50000x256, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x256, .f32⟩
  | 89 => ⟨S_, .f32⟩
  | 90 => ⟨S50000x256, .f32⟩
  | 91 => ⟨S600000x1, .i32⟩
  | 92 => ⟨S50000x256, .f32⟩
  | 93 => ⟨S50000x1, .f32⟩
  | 94 => ⟨S50000x256, .f32⟩
  | 95 => ⟨S50000x256, .f32⟩
  | 96 => ⟨S1x256, .f32⟩
  | 97 => ⟨S50000x256, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x1, .f32⟩
  | 112 => ⟨S50000x128, .f32⟩
  | 113 => ⟨S50000x128, .f32⟩
  | 114 => ⟨S1x256, .f32⟩
  | 115 => ⟨S50000x256, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x256, .f32⟩
  | 125 => ⟨S_, .f32⟩
  | 126 => ⟨S50000x256, .f32⟩
  | 127 => ⟨S800000x1, .i32⟩
  | _ => ⟨S50000x128, .f32⟩

abbrev hbmTy0_1 (i : Nat) : BufTy := match i % 128 with
  | 0 => ⟨S50000x256, .f32⟩
  | 1 => ⟨S50000x1, .f32⟩
  | 2 => ⟨S50000x256, .f32⟩
  | 3 => ⟨S50000x256, .f32⟩
  | 4 => ⟨S1x256, .f32⟩
  | 5 => ⟨S50000x256, .f32⟩
  | 6 => ⟨S50000x512, .f32⟩
  | 7 => ⟨S1x128, .f32⟩
  | 8 => ⟨S50000x128, .f32⟩
  | 9 => ⟨S_, .f32⟩
  | 10 => ⟨S128, .f32⟩
  | 11 => ⟨S_, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S50000x128, .f32⟩
  | 18 => ⟨S_, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S128, .f32⟩
  | 27 => ⟨S1x128, .f32⟩
  | 28 => ⟨S1x128, .f32⟩
  | 29 => ⟨S1x128, .f32⟩
  | 30 => ⟨S1x128, .f32⟩
  | 31 => ⟨S1x64, .f32⟩
  | 32 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x256, .f32⟩
  | .local _ .vmem, ⟨32, _⟩ => ⟨S128x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S256x256, .f32⟩
  | .local _ .vmem, ⟨42, _⟩ => ⟨S1x256, .f32⟩
  | .local _ .vmem, ⟨43, _⟩ => ⟨S2000x256, .f32⟩
  | .local _ .vmem, ⟨44, _⟩ => ⟨S2000x256, .f32⟩
  | .local _ .vmem, ⟨45, _⟩ => ⟨S2000x512, .f32⟩
  | .local _ .vmem, ⟨46, _⟩ => ⟨S2000x512, .f32⟩
  | .local _ .vmem, ⟨47, _⟩ => ⟨S512x128, .f32⟩
  | .local _ .vmem, ⟨48, _⟩ => ⟨S1x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S128x64, .f32⟩
  | .local _ .vmem, ⟨58, _⟩ => ⟨S1x64, .f32⟩
  | .local _ .vmem, ⟨59, _⟩ => ⟨S2000x64, .f32⟩
  | .local _ .vmem, ⟨60, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_cst_3 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_4 : Ref sig .tc := ⟨.hbm, 41, rfl⟩
abbrev main_v10 : Ref sig .tc := ⟨.hbm, 42, rfl⟩
abbrev main_v11 : Ref sig .tc := ⟨.hbm, 43, rfl⟩
abbrev main_c : Ref sig .tc := ⟨.hbm, 44, rfl⟩
abbrev main_v12 : Ref sig .tc := ⟨.hbm, 45, rfl⟩
abbrev main_v13 : Ref sig .tc := ⟨.hbm, 46, rfl⟩
abbrev main_c_5 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_6 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_call0_v0 : Ref sig .tc := ⟨.hbm, 60, rfl⟩
abbrev main_v25 : Ref sig .tc := ⟨.hbm, 61, rfl⟩
abbrev main_c_7 : Ref sig .tc := ⟨.hbm, 62, rfl⟩
abbrev main_v26 : Ref sig .tc := ⟨.hbm, 63, rfl⟩
abbrev main_v27 : Ref sig .tc := ⟨.hbm, 64, rfl⟩
abbrev main_c_8 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_9 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call1_v0 : Ref sig .tc := ⟨.hbm, 78, rfl⟩
abbrev main_v39 : Ref sig .tc := ⟨.hbm, 79, rfl⟩
abbrev main_c_10 : Ref sig .tc := ⟨.hbm, 80, rfl⟩
abbrev main_v40 : Ref sig .tc := ⟨.hbm, 81, rfl⟩
abbrev main_v41 : Ref sig .tc := ⟨.hbm, 82, rfl⟩
abbrev main_c_11 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_12 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_call2_v0 : Ref sig .tc := ⟨.hbm, 96, rfl⟩
abbrev main_v53 : Ref sig .tc := ⟨.hbm, 97, rfl⟩
abbrev main_c_13 : Ref sig .tc := ⟨.hbm, 98, rfl⟩
abbrev main_v54 : Ref sig .tc := ⟨.hbm, 99, rfl⟩
abbrev main_v55 : Ref sig .tc := ⟨.hbm, 100, rfl⟩
abbrev main_c_14 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_15 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_call3_v0 : Ref sig .tc := ⟨.hbm, 114, rfl⟩
abbrev main_v67 : Ref sig .tc := ⟨.hbm, 115, rfl⟩
abbrev main_c_16 : Ref sig .tc := ⟨.hbm, 116, rfl⟩
abbrev main_v68 : Ref sig .tc := ⟨.hbm, 117, rfl⟩
abbrev main_v69 : Ref sig .tc := ⟨.hbm, 118, rfl⟩
abbrev main_c_17 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_18 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_call4_v0 : Ref sig .tc := ⟨.hbm, 132, rfl⟩
abbrev main_v81 : Ref sig .tc := ⟨.hbm, 133, rfl⟩
abbrev main_v82 : Ref sig .tc := ⟨.hbm, 134, rfl⟩
abbrev main_call5_v0 : Ref sig .tc := ⟨.hbm, 135, rfl⟩
abbrev main_v83 : Ref sig .tc := ⟨.hbm, 136, rfl⟩
abbrev main_cst_19 : Ref sig .tc := ⟨.hbm, 137, rfl⟩
abbrev main_v84 : Ref sig .tc := ⟨.hbm, 138, rfl⟩
abbrev main_cst_20 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_21 : Ref sig .tc := ⟨.hbm, 146, rfl⟩
abbrev main_v91 : Ref sig .tc := ⟨.hbm, 147, rfl⟩
abbrev main_cst_22 : Ref sig .tc := ⟨.hbm, 148, rfl⟩
abbrev main_v92 : Ref sig .tc := ⟨.hbm, 149, rfl⟩
abbrev main_v93 : Ref sig .tc := ⟨.hbm, 150, rfl⟩
abbrev main_cst_23 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_v97 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg3_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg6_0 : Ref sig .tc := ⟨.vmem, 58, rfl⟩
abbrev cc6_stg7_0 : Ref sig .tc := ⟨.vmem, 59, rfl⟩
abbrev cc6_stg7_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem3_0 : DmaSem sig := 49
abbrev cc5_sem3_1 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem6_0 : DmaSem sig := 58
abbrev cc6_sem7_0 : DmaSem sig := 59
abbrev cc6_sem7_1 : DmaSem sig := 60

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S2000x128_S2000x128 : S2000x128.ShapeCasts S2000x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  concatenates_S50000x256_S50000x256_S50000x512_d1 : Shape.Concatenates [S50000x256, S50000x256] S50000x512 1
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S600000x1_S600000_n_0_0_1_wf : ScatterDims.WF S50000 S600000x1 S600000 [] [0] [0] 1
  scatter_S50000_S800000x1_S800000_n_0_0_1_wf : ScatterDims.WF S50000 S800000x1 S800000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x256_S2000x256_1_0_0_1_n_n_wf : DotDims.WF S2000x256 S256x256 S2000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x512_S512x128_S2000x128_1_0_0_1_n_n_wf : DotDims.WF S2000x512 S512x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x128.size a ≤ S512x128.size a
  hwx5_1 : ∀ i : grid5.Coords, EltTy.bits .f32 = 32 ∨ (Rect.block (s := S512x128) S512x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x64.size a ≤ S128x64.size a
  hwx6_5 : ∀ i : grid6.Coords, EltTy.bits .f32 = 32 ∨ (Rect.block (s := S128x64) S128x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x64.size a ≤ S50000x64.size a
  hwx6_7 : ∀ i : grid6.Coords, EltTy.bits .f32 = 32 ∨ (Rect.block (s := S50000x64) S2000x64.size (cc6_transform_7 i) (hinb6_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call1_v0) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call2_v0) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call3_v0) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v67) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg17) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call4_v0) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v82) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg20) S512x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call5_v0) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v83) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call6_v0) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_call6_v1) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call6_v2) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_call6_v3) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg24) S128x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_call6_v4) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v97) S2000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S600000 : Shape := ⟨1, ![600000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S800000x1 : Shape := ⟨2, ![800000, 1]⟩
abbrev S800000x128 : Shape := ⟨2, ![800000, 128]⟩
abbrev S800000x256 : Shape := ⟨2, ![800000, 256]⟩
abbrev S50000x512 : Shape := ⟨2, ![50000, 512]⟩
abbrev S1x128 : Shape := ⟨2, ![1, 128]⟩
abbrev S50000x64 : Shape := ⟨2, ![50000, 64]⟩
abbrev S1x64 : Shape := ⟨2, ![1, 64]⟩

abbrev nBuf : Space → Nat
  | .hbm => 232
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S800000, .i32⟩
  | 4 => ⟨S800000, .i32⟩
  | 5 => ⟨S128x256, .f32⟩
  | 6 => ⟨S128x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S128x256, .f32⟩
  | 15 => ⟨S128x256, .f32⟩
  | 16 => ⟨S256, .f32⟩
  | 17 => ⟨S256x256, .f32⟩
  | 18 => ⟨S256x256, .f32⟩
  | 19 => ⟨S256, .f32⟩
  | 20 => ⟨S512x128, .f32⟩
  | 21 => ⟨S128, .f32⟩
  | 22 => ⟨S128, .f32⟩
  | 23 => ⟨S128, .f32⟩
  | 24 => ⟨S128x64, .f32⟩
  | 25 => ⟨S64, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S_, .f32⟩
  | 36 => ⟨S50000x128, .f32⟩
  | 37 => ⟨S600000x1, .i32⟩
  | 38 => ⟨S50000x128, .f32⟩
  | 39 => ⟨S_, .f32⟩
  | 40 => ⟨S600000, .f32⟩
  | 41 => ⟨S_, .f32⟩
  | 42 => ⟨S50000, .f32⟩
  | 43 => ⟨S600000x1, .i32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S50000x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x256, .f32⟩
  | 69 => ⟨S_, .f32⟩
  | 70 => ⟨S50000x256, .f32⟩
  | 71 => ⟨S600000x1, .i32⟩
  | 72 => ⟨S50000x256, .f32⟩
  | 73 => ⟨S_, .f32⟩
  | 74 => ⟨S600000, .f32⟩
  | 75 => ⟨S_, .f32⟩
  | 76 => ⟨S50000, .f32⟩
  | 77 => ⟨S600000x1, .i32⟩
  | 78 => ⟨S50000, .f32⟩
  | 79 => ⟨S_, .f32⟩
  | 80 => ⟨S50000, .f32⟩
  | 81 => ⟨S50000, .f32⟩
  | 82 => ⟨S50000x1, .f32⟩
  | 83 => ⟨S50000x256, .f32⟩
  | 84 => ⟨S50000x256, .f32⟩
  | 85 => ⟨S50000x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x256, .f32⟩
  | 103 => ⟨S_, .f32⟩
  | 104 => ⟨S50000x256, .f32⟩
  | 105 => ⟨S600000x1, .i32⟩
  | 106 => ⟨S50000x256, .f32⟩
  | 107 => ⟨S_, .f32⟩
  | 108 => ⟨S600000, .f32⟩
  | 109 => ⟨S_, .f32⟩
  | 110 => ⟨S50000, .f32⟩
  | 111 => ⟨S600000x1, .i32⟩
  | 112 => ⟨S50000, .f32⟩
  | 113 => ⟨S_, .f32⟩
  | 114 => ⟨S50000, .f32⟩
  | 115 => ⟨S50000, .f32⟩
  | 116 => ⟨S50000x1, .f32⟩
  | 117 => ⟨S50000x256, .f32⟩
  | 118 => ⟨S50000x256, .f32⟩
  | 119 => ⟨S50000x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x128, .f32⟩
  | 21 => ⟨S50000x128, .f32⟩
  | 22 => ⟨S50000x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S_, .f32⟩
  | 29 => ⟨S50000x256, .f32⟩
  | 30 => ⟨S50000x256, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x256, .f32⟩
  | 40 => ⟨S_, .f32⟩
  | 41 => ⟨S50000x256, .f32⟩
  | 42 => ⟨S800000x1, .i32⟩
  | 43 => ⟨S50000x256, .f32⟩
  | 44 => ⟨S_, .f32⟩
  | 45 => ⟨S800000, .f32⟩
  | 46 => ⟨S_, .f32⟩
  | 47 => ⟨S50000, .f32⟩
  | 48 => ⟨S800000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x256, .f32⟩
  | 55 => ⟨S50000x256, .f32⟩
  | 56 => ⟨S50000x256, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S50000x512, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x64, .f32⟩
  | 101 => ⟨S1x64, .f32⟩
  | 102 => ⟨S50000x64, .f32⟩
  | 103 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call0_cst : Ref sig .tc := ⟨.hbm, 57, rfl⟩
abbrev main_call0_v0 : Ref sig .tc := ⟨.hbm, 58, rfl⟩
abbrev main_v25 : Ref sig .tc := ⟨.hbm, 59, rfl⟩
abbrev main_c_4 : Ref sig .tc := ⟨.hbm, 60, rfl⟩
abbrev main_v26 : Ref sig .tc := ⟨.hbm, 61, rfl⟩
abbrev main_v27 : Ref sig .tc := ⟨.hbm, 62, rfl⟩
abbrev main_c_5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_6 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_7 : Ref sig .tc := ⟨.hbm, 73, rfl⟩
abbrev main_v36 : Ref sig .tc := ⟨.hbm, 74, rfl⟩
abbrev main_cst_8 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_9 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call1_cst : Ref sig .tc := ⟨.hbm, 91, rfl⟩
abbrev main_call1_v0 : Ref sig .tc := ⟨.hbm, 92, rfl⟩
abbrev main_v51 : Ref sig .tc := ⟨.hbm, 93, rfl⟩
abbrev main_c_10 : Ref sig .tc := ⟨.hbm, 94, rfl⟩
abbrev main_v52 : Ref sig .tc := ⟨.hbm, 95, rfl⟩
abbrev main_v53 : Ref sig .tc := ⟨.hbm, 96, rfl⟩
abbrev main_c_11 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_12 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_13 : Ref sig .tc := ⟨.hbm, 107, rfl⟩
abbrev main_v62 : Ref sig .tc := ⟨.hbm, 108, rfl⟩
abbrev main_cst_14 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_15 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_16 : Ref sig .tc := ⟨.hbm, 125, rfl⟩
abbrev main_v77 : Ref sig .tc := ⟨.hbm, 126, rfl⟩
abbrev main_v78 : Ref sig .tc := ⟨.hbm, 127, rfl⟩
abbrev main_c_17 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_18 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_19 : Ref sig .tc := ⟨.hbm, 138, rfl⟩
abbrev main_v87 : Ref sig .tc := ⟨.hbm, 139, rfl⟩
abbrev main_cst_20 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_21 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_call2_cst : Ref sig .tc := ⟨.hbm, 156, rfl⟩
abbrev main_call2_v0 : Ref sig .tc := ⟨.hbm, 157, rfl⟩
abbrev main_v102 : Ref sig .tc := ⟨.hbm, 158, rfl⟩
abbrev main_c_22 : Ref sig .tc := ⟨.hbm, 159, rfl⟩
abbrev main_v103 : Ref sig .tc := ⟨.hbm, 160, rfl⟩
abbrev main_v104 : Ref sig .tc := ⟨.hbm, 161, rfl⟩
abbrev main_c_23 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_cst_24 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_25 : Ref sig .tc := ⟨.hbm, 172, rfl⟩
abbrev main_v113 : Ref sig .tc := ⟨.hbm, 173, rfl⟩
abbrev main_cst_26 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_27 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_28 : Ref sig .tc := ⟨.hbm, 195, rfl⟩
abbrev main_v133 : Ref sig .tc := ⟨.hbm, 196, rfl⟩
abbrev main_cst_29 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_cst_30 : Ref sig .tc := ⟨.hbm, 204, rfl⟩
abbrev main_v140 : Ref sig .tc := ⟨.hbm, 205, rfl⟩
abbrev main_cst_31 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_cst_32 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_call3_cst : Ref sig .tc := ⟨.hbm, 225, rfl⟩
abbrev main_call3_v0 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  concatenates_S50000x256_S50000x256_S50000x512_d1 : Shape.Concatenates [S50000x256, S50000x256] S50000x512 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x512_S512x128_S50000x128_1_0_0_1_n_n_wf : DotDims.WF S50000x512 S512x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Whole.lean ====
/-
  The run of the whole program with its result named: every weakly fair execution ends, nothing faults, the
  arguments end as launched, and the result buffer ends at the last boundary's contents — the fold through the
  program's host stretches and its seven regions, each region's arrays at what its write-backs leave.
-/
import proofs.«114462_j4672924418435_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v97) = W21 m ρ c (Proc.devRef .tc main_v97)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v97 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c),
       (h c _ (mem_uc main_arg16 (by decide))).trans (W21_main_arg16 m ρ c),
       (h c _ (mem_uc main_arg17 (by decide))).trans (W21_main_arg17 m ρ c),
       (h c _ (mem_uc main_arg18 (by decide))).trans (W21_main_arg18 m ρ c),
       (h c _ (mem_uc main_arg19 (by decide))).trans (W21_main_arg19 m ρ c),
       (h c _ (mem_uc main_arg20 (by decide))).trans (W21_main_arg20 m ρ c),
       (h c _ (mem_uc main_arg21 (by decide))).trans (W21_main_arg21 m ρ c),
       (h c _ (mem_uc main_arg22 (by decide))).trans (W21_main_arg22 m ρ c),
       (h c _ (mem_uc main_arg23 (by decide))).trans (W21_main_arg23 m ρ c),
       (h c _ (mem_uc main_arg24 (by decide))).trans (W21_main_arg24 m ρ c),
       (h c _ (mem_uc main_arg25 (by decide))).trans (W21_main_arg25 m ρ c)⟩)

end Cert.KernelIdeal.Whole

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnForms.lean ====
/-
  A column vector on the host: its two spellings, and its spread over a matrix.

  A vector of `a` entries becomes the column `[a, 1]` either by a reshape or by a broadcast that sends the vector's axis to
  the column's first axis: the two are one array, entry (i, 0) being the vector's entry i. A column `[R, 1]` broadcast to
  `[R, N]` with its axes kept in place reads, at (r, n), the column's entry r.
-/
import Idealize.ShloMosaic.Lib.ValueIdx
import Idealize.ShloMosaic.Lib.Pipeline.Value
import proofs.«114462_j4672924418435_1_alg».proof.Proof.LibColumn

noncomputable section

namespace Cert.Lib

open Idealize.ShloMosaic Idealize.ShloMosaic.ValueIdx

variable {α : Type}

/-- A column `[R, 1]` broadcast to `[R, N]` (axes kept in place) reads, at `(r, n)`, the column's entry `r`. -/
theorem cols_of_oneCol {R N : ℕ} (hb : (⟨2, ![R, 1]⟩ : Shape).BroadcastsInDim ⟨2, ![R, N]⟩ (![0, 1] : Fin 2 → Fin 2))
    (v : (⟨2, ![R, 1]⟩ : Shape).Idx → α) (r : Fin R) (n : Fin N) :
    broadcastInDim ⟨2, ![R, N]⟩ ![0, 1] hb v (ix2 r n) = v (ix2 r (0 : Fin 1)) :=
  broadcastInDim_apply _ hb v (ix2 r n) (ix2 r (0 : Fin 1)) (fun a => match a with
    | ⟨0, _⟩ => by
      show r.val = if R = 1 then 0 else r.val
      have h1 : r.val < R := r.isLt
      split
      · omega
      · rfl
    | ⟨1, _⟩ => by
      show (0 : ℕ) = if (1 : ℕ) = 1 then 0 else n.val
      rw [if_pos rfl])

/-- A vector reshaped to a column and the same vector broadcast into the column along the first axis are one array. -/
theorem shapeCast_eq_broadcastInDim_col {a : ℕ} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ v h = broadcastInDim ⟨2, ![a, 1]⟩ ![0] hb v := by
  funext i
  refine ((congrArg (shapeCast ⟨2, ![a, 1]⟩ v h) (eq_ix2 i)).trans (shapeCast_a_a1_apply v h (i 0) (i 1))).trans ?_
  exact (broadcastInDim_apply _ hb v i (ix1 (i 0)) (fun ax => match ax with
    | ⟨0, _⟩ => by
      show (i 0).val = if a = 1 then 0 else (i 0).val
      have h1 : (i 0).val < a := (i 0).isLt
      split
      · omega
      · rfl)).symm

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibGcnCombine.lean ====
/-
  General lemmas, program-free, for any extents (namespace Cert.Gcn): the dense layers of a graph-convolution network
  as whole-array functions on the extended reals — `product` (X·W), `affine` (X·W + b, b one [1,M] row), `combine`
  (A + H·s + b, s one [n,1] column, b one [1,M] row) and `relu` (the maximum with the zero word).
  * One block's arithmetic IS the layer of the loaded blocks, as whole arrays: `blockProduct` / `blockProductCast` (a matrix
    unit product of the narrowed block with the narrowed weights into a zero accumulator), `blockAffine` (plus a [1,M] row
    stretched by broadcastTo), `blockCombine` (a [n,1] column and a [1,M] row stretched by broadcastTo), `blockRelu`.
  * A layer's entry depends on one row: `product_at`, `affine_at`, `combine_at`, `relu_at` (entry j of the layer of a block
    of rows is entry i of the layer of the whole arrays when row j 0 of the block is row i 0 of the arrays).
  * The same layers spelled with host operations: `hostProduct` (dot_general [n,K]x[K,M]), `hostAffine` (plus a vector
    laid as a row by broadcast_in_dim dims=[1] then dims=[0,1]), `hostCombine` (a vector laid as a column by dims=[0] then
    dims=[0,1], a bias as a row), `hostRelu` (maximum with a broadcast scalar zero).
  Imports LibMatDot, LibColumn, LibColumnForms, LibAsRow, LibSlabs of the same directory.
-/
import Idealize.ShloMosaic.PureOps.Ideal.Laws
import Idealize.ShloMosaic.Lib.ValueIdx
import Idealize.ShloMosaic.Lib.Pipeline.Value
import Idealize.ShloMosaic.Lib.ValueLayout
import proofs.«114462_j4672924418435_1_alg».proof.Proof.LibMatDot
import proofs.«114462_j4672924418435_1_alg».proof.Proof.LibColumn
import proofs.«114462_j4672924418435_1_alg».proof.Proof.LibColumnForms
import proofs.«114462_j4672924418435_1_alg».proof.Proof.LibAsRow
import proofs.«114462_j4672924418435_1_alg».proof.Proof.LibSlabs

noncomputable section

namespace Cert.Gcn

open Idealize.ShloMosaic Idealize.ShloMosaic.ValueIdx Cert.Lib
open scoped BigOperators

variable {n K M : ℕ}

/-- An `[a, b]` array of extended reals. -/
abbrev Mat (a b : ℕ) : Type := FVec Ideal ⟨2, ![a, b]⟩ .f32

/-- The product X·W: entry (p, q) is the sum over k of X(p,k)·W(k,q). -/
def product (X : Mat n K) (W : Mat K M) : Mat n M := fun i => ∑ k : Fin K, X (ix2 (i 0) k) * W (ix2 k (i 1))

/-- The affine layer X·W + b, the bias one row. -/
def affine (X : Mat n K) (W : Mat K M) (B : Mat 1 M) : Mat n M := fun i => product X W i + B (ix2 (0 : Fin 1) (i 1))

/-- The combination A + H·s + b: row p of H scaled by the column's entry p, the bias one row. -/
def combine (A H : Mat n M) (S : Mat n 1) (B : Mat 1 M) : Mat n M :=
  fun i => A i + H i * S (ix2 (i 0) (0 : Fin 1)) + B (ix2 (0 : Fin 1) (i 1))

/-- The rectifier: the maximum with zero, entry by entry. -/
def relu (Y : Mat n M) : Mat n M := fun i => max (Y i) (Ideal.ofBits .f32 0x00000000#32)

theorem product_apply (X : Mat n K) (W : Mat K M) (p : Fin n) (q : Fin M) :
    product X W (ix2 p q) = ∑ k : Fin K, X (ix2 p k) * W (ix2 k q) := rfl

/-! ## One block's arithmetic -/

section Block

variable (wf : DotDims.WF ⟨2, ![n, K]⟩ ⟨2, ![K, M]⟩ ⟨2, ![n, M]⟩ [1] [0] [0] [1] [] [])
  (hbits : FTy.bf16.bits < FTy.f32.bits)

/-- The matrix unit's product of the narrowed block with the narrowed weights into a zero accumulator is the
    product: narrowing is the identity on the extended reals. -/
theorem blockProduct (x : Mat n K) (w : Mat K M) :
    matmul (matDot wf) none (truncf .bf16 x hbits) (truncf .bf16 w hbits) (constant ⟨2, ![n, M]⟩ .f32 0x00000000#32)
      = product x w := by
  funext i
  obtain ⟨p, q, rfl⟩ : ∃ (p : Fin n) (q : Fin M), i = ix2 p q := ⟨i 0, i 1, eq_ix2 i⟩
  exact (matmul_plain_zero_apply wf none (truncf .bf16 x hbits) (truncf .bf16 w hbits) p q).trans rfl

/-- The same with the block passed through a cast to its own shape first. -/
theorem blockProductCast (hc : (⟨2, ![n, K]⟩ : Shape).ShapeCasts ⟨2, ![n, K]⟩) (x : Mat n K) (w : Mat K M) :
    matmul (matDot wf) none (truncf .bf16 (shapeCast ⟨2, ![n, K]⟩ x hc) hbits) (truncf .bf16 w hbits)
        (constant ⟨2, ![n, M]⟩ .f32 0x00000000#32)
      = product x w := by
  rw [shapeCast_self]
  exact blockProduct wf hbits x w

/-- The same plus a bias row stretched over the block's rows. -/
theorem blockAffine (x : Mat n K) (w : Mat K M) (b : Mat 1 M)
    (hs : (⟨2, ![1, M]⟩ : Shape).ShapeCasts ⟨2, ![1, M]⟩) (hb : (⟨2, ![1, M]⟩ : Shape).Broadcasts ⟨2, ![n, M]⟩) :
    addf (matmul (matDot wf) none (truncf .bf16 x hbits) (truncf .bf16 w hbits) (constant ⟨2, ![n, M]⟩ .f32 0x00000000#32))
        (broadcastTo ⟨2, ![n, M]⟩ (shapeCast ⟨2, ![1, M]⟩ b hs) hb)
      = affine x w b := by
  rw [blockProduct, shapeCast_self]
  funext i
  obtain ⟨p, q, rfl⟩ : ∃ (p : Fin n) (q : Fin M), i = ix2 p q := ⟨i 0, i 1, eq_ix2 i⟩
  show product x w _ + broadcastTo ⟨2, ![n, M]⟩ b hb (ix2 p q) = _
  rw [broadcastTo_1b_ab_apply]
  rfl

end Block

/-- The block of the combination: the column stretched over the block's columns, the row over its rows. -/
theorem blockCombine (a h : Mat n M) (s : Mat n 1) (b : Mat 1 M)
    (h1 : (⟨2, ![n, M]⟩ : Shape).ShapeCasts ⟨2, ![n, M]⟩) (h2 : (⟨2, ![n, 1]⟩ : Shape).ShapeCasts ⟨2, ![n, 1]⟩)
    (h3 : (⟨2, ![n, 1]⟩ : Shape).Broadcasts ⟨2, ![n, M]⟩) (h4 : (⟨2, ![1, M]⟩ : Shape).ShapeCasts ⟨2, ![1, M]⟩)
    (h5 : (⟨2, ![1, M]⟩ : Shape).Broadcasts ⟨2, ![n, M]⟩) :
    addf (addf (shapeCast ⟨2, ![n, M]⟩ a h1)
          (mulf (shapeCast ⟨2, ![n, M]⟩ h h1) (broadcastTo ⟨2, ![n, M]⟩ (shapeCast ⟨2, ![n, 1]⟩ s h2) h3)))
        (broadcastTo ⟨2, ![n, M]⟩ (shapeCast ⟨2, ![1, M]⟩ b h4) h5)
      = combine a h s b := by
  rw [shapeCast_self, shapeCast_self, shapeCast_self, shapeCast_self]
  funext i
  obtain ⟨p, q, rfl⟩ : ∃ (p : Fin n) (q : Fin M), i = ix2 p q := ⟨i 0, i 1, eq_ix2 i⟩
  show a _ + h _ * broadcastTo ⟨2, ![n, M]⟩ s h3 (ix2 p q) + broadcastTo ⟨2, ![n, M]⟩ b h5 (ix2 p q) = _
  rw [broadcastTo_1b_ab_apply, broadcastTo_a1_ab_apply]
  rfl

/-- The maximum with a zero spread over the block is the rectifier. -/
theorem blockRelu (y : Mat n M) :
    maximumf y (broadcast ⟨2, ![n, M]⟩ (Scalar.ofBits (F := Ideal) .f32 0x00000000#32)) = relu y := rfl

/-! ## A layer's entry depends on one row of its row-indexed operands

  Entry `j` of a layer computed from a block of rows equals entry `i` of the layer computed from the whole arrays as
  soon as the block's row `j 0` is the arrays' row `i 0` and the columns agree. -/

variable {N : ℕ}

theorem product_at (X : Mat N K) (W : Mat K M) (x : Mat n K) (w : Mat K M) (j : (⟨2, ![n, M]⟩ : Shape).Idx)
    (i : (⟨2, ![N, M]⟩ : Shape).Idx) (hx : ∀ k : Fin K, x (ix2 (j 0) k) = X (ix2 (i 0) k))
    (hw : ∀ k : Fin K, w (ix2 k (j 1)) = W (ix2 k (i 1))) : product x w j = product X W i := by
  unfold product
  exact Finset.sum_congr rfl fun k _ => by rw [hx k, hw k]

theorem affine_at (X : Mat N K) (W : Mat K M) (B : Mat 1 M) (x : Mat n K) (w : Mat K M) (b : Mat 1 M)
    (j : (⟨2, ![n, M]⟩ : Shape).Idx) (i : (⟨2, ![N, M]⟩ : Shape).Idx)
    (hx : ∀ k : Fin K, x (ix2 (j 0) k) = X (ix2 (i 0) k)) (hw : ∀ k : Fin K, w (ix2 k (j 1)) = W (ix2 k (i 1)))
    (hb : b (ix2 (0 : Fin 1) (j 1)) = B (ix2 (0 : Fin 1) (i 1))) : affine x w b j = affine X W B i := by
  unfold affine
  rw [product_at X W x w j i hx hw, hb]

theorem combine_at (A H : Mat N M) (S : Mat N 1) (B : Mat 1 M) (a h : Mat n M) (s : Mat n 1) (b : Mat 1 M)
    (j : (⟨2, ![n, M]⟩ : Shape).Idx) (i : (⟨2, ![N, M]⟩ : Shape).Idx) (ha : a j = A i) (hh : h j = H i)
    (hs : s (ix2 (j 0) (0 : Fin 1)) = S (ix2 (i 0) (0 : Fin 1)))
    (hb : b (ix2 (0 : Fin 1) (j 1)) = B (ix2 (0 : Fin 1) (i 1))) : combine a h s b j = combine A H S B i := by
  unfold combine
  rw [ha, hh, hs, hb]

theorem relu_at (Y : Mat N M) (y : Mat n M) (j : (⟨2, ![n, M]⟩ : Shape).Idx) (i : (⟨2, ![N, M]⟩ : Shape).Idx)
    (hy : y j = Y i) : relu y j = relu Y i := by
  unfold relu
  rw [hy]

/-! ## The same layers spelled with whole-array operations -/

/-- A general product contracting the left operand's columns with the right operand's rows is the product. -/
theorem hostProduct (wf : DotDims.WF ⟨2, ![n, K]⟩ ⟨2, ![K, M]⟩ ⟨2, ![n, M]⟩ [1] [0] [0] [1] [] [])
    (prec : Option ContractPrecision) (l : Mat n K) (r : Mat K M) :
    Host.dotGeneral (matDot wf) prec l r = product l r := by
  funext i
  obtain ⟨p, q, rfl⟩ : ∃ (p : Fin n) (q : Fin M), i = ix2 p q := ⟨i 0, i 1, eq_ix2 i⟩
  exact (dotGeneral_plain_apply wf prec _ l r p q).trans rfl

/-- The product plus a bias vector laid out as one row and repeated over the rows is the affine layer. -/
theorem hostAffine (wf : DotDims.WF ⟨2, ![n, K]⟩ ⟨2, ![K, M]⟩ ⟨2, ![n, M]⟩ [1] [0] [0] [1] [] [])
    (prec : Option ContractPrecision) (X : Mat n K) (W : Mat K M) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) :
    addf (Host.dotGeneral (matDot wf) prec X W)
        (broadcastInDim ⟨2, ![n, M]⟩ ![0, 1] h2 (broadcastInDim ⟨2, ![1, M]⟩ ![1] h1 b))
      = affine X W (asRow b) := by
  rw [hostProduct, broadcastInDim_eq_asRow]
  funext i
  obtain ⟨p, q, rfl⟩ : ∃ (p : Fin n) (q : Fin M), i = ix2 p q := ⟨i 0, i 1, eq_ix2 i⟩
  show product X W _ + broadcastInDim ⟨2, ![n, M]⟩ ![0, 1] h2 (asRow b) (ix2 p q) = _
  rw [rows_of_oneRow]
  rfl

/-- Adding the rows of H scaled by a vector laid out as one column, and a bias vector laid out as one row, is the
    combination. -/
theorem hostCombine (A H : Mat n M) (s : FVec Ideal ⟨1, ![n]⟩ .f32) (b : FVec Ideal ⟨1, ![M]⟩ .f32)
    (hs1 : (⟨1, ![n]⟩ : Shape).BroadcastsInDim ⟨2, ![n, 1]⟩ (![0] : Fin 1 → Fin 2))
    (hs2 : (⟨2, ![n, 1]⟩ : Shape).BroadcastsInDim ⟨2, ![n, M]⟩ (![0, 1] : Fin 2 → Fin 2))
    (hb1 : (⟨1, ![M]⟩ : Shape).BroadcastsInDim ⟨2, ![1, M]⟩ (![1] : Fin 1 → Fin 2))
    (hb2 : (⟨2, ![1, M]⟩ : Shape).BroadcastsInDim ⟨2, ![n, M]⟩ (![0, 1] : Fin 2 → Fin 2)) :
    addf (addf A (mulf H (broadcastInDim ⟨2, ![n, M]⟩ ![0, 1] hs2 (broadcastInDim ⟨2, ![n, 1]⟩ ![0] hs1 s))))
        (broadcastInDim ⟨2, ![n, M]⟩ ![0, 1] hb2 (broadcastInDim ⟨2, ![1, M]⟩ ![1] hb1 b))
      = combine A H (broadcastInDim ⟨2, ![n, 1]⟩ ![0] hs1 s) (asRow b) := by
  rw [broadcastInDim_eq_asRow]
  funext i
  obtain ⟨p, q, rfl⟩ : ∃ (p : Fin n) (q : Fin M), i = ix2 p q := ⟨i 0, i 1, eq_ix2 i⟩
  show A _ + H _ * broadcastInDim ⟨2, ![n, M]⟩ ![0, 1] hs2 (broadcastInDim ⟨2, ![n, 1]⟩ ![0] hs1 s) (ix2 p q)
      + broadcastInDim ⟨2, ![n, M]⟩ ![0, 1] hb2 (asRow b) (ix2 p q) = _
  rw [rows_of_oneRow, cols_of_oneCol]
  rfl

/-- The maximum with a zero repeated over the array is the rectifier. -/
theorem hostRelu (Y : Mat n M) (h : (⟨0, ![]⟩ : Shape).BroadcastsInDim ⟨2, ![n, M]⟩ (![] : Fin 0 → Fin 2)) :
    maximumf Y (broadcastInDim ⟨2, ![n, M]⟩ ![] h (constant ⟨0, ![]⟩ .f32 0x00000000#32)) = relu Y := rfl

end Cert.Gcn

end
-- ==== Proof.Net.lean ====
/-
  The dense layers of the two-graph network, as whole-array functions on the extended reals, for any extents.

  * sage H H' W W' b : entry (p, q) is  Σ_k H(p,k)·W(k,q) + Σ_k H'(p,k)·W'(k,q) + b(0,q)  — a node's own features
    and the mean of its neighbours' features, each through its own weights, plus a bias row;
  * bnAct X μ s γ β : entry (p, k) is  max (γ(0,k)·((X(p,k) − μ(0,k))·s(0,k)) + β(0,k)) 0  — batch normalisation by
    column with given mean and inverse deviation rows, then the rectifier;
  * bnHead = the affine layer of bnAct.

  Each is (i) what one block of rows computes with the matrix unit (operands narrowed on the way in: narrowing
  is the identity here), (ii) determined row by row, and (iii) what the whole-array spelling with dot_general and
  broadcasts computes.  The two spellings of the normalisation differ by the grouping of a product of three
  factors: multiplication of extended reals is associative.
-/
import Idealize.ShloMosaic.PureOps.Ideal.Laws
import Idealize.ShloMosaic.Lib.ValueIdx
import Idealize.ShloMosaic.Lib.Pipeline.Value
import Idealize.ShloMosaic.Lib.ValueLayout
import proofs.«114462_j4672924418435_1_alg».proof.Proof.LibGcnCombine

noncomputable section

namespace Cert.Net

open Idealize.ShloMosaic Idealize.ShloMosaic.ValueIdx Cert.Lib Cert.Gcn
open scoped BigOperators

variable {n K M N : ℕ}

/-- Own features and neighbour means, each through its weights, plus the bias row. -/
def sage (H H' : Mat n K) (W W' : Mat K M) (B : Mat 1 M) : Mat n M :=
  fun i => product H W i + product H' W' i + B (ix2 (0 : Fin 1) (i 1))

/-- Normalise each column with the given mean and inverse-deviation rows, scale, shift, rectify. -/
def bnAct (X : Mat n K) (mu s g be : Mat 1 K) : Mat n K :=
  fun i => max (g (ix2 (0 : Fin 1) (i 1)) * ((X i - mu (ix2 (0 : Fin 1) (i 1))) * s (ix2 (0 : Fin 1) (i 1)))
      + be (ix2 (0 : Fin 1) (i 1))) (Ideal.ofBits .f32 0x00000000#32)

/-- The head: the affine layer of the normalised, rectified features. -/
def bnHead (X : Mat n K) (mu s g be : Mat 1 K) (W : Mat K M) (B : Mat 1 M) : Mat n M :=
  affine (bnAct X mu s g be) W B

section Block

variable (wf : DotDims.WF ⟨2, ![n, K]⟩ ⟨2, ![K, M]⟩ ⟨2, ![n, M]⟩ [1] [0] [0] [1] [] [])
  (hbits : FTy.bf16.bits < FTy.f32.bits)

/-- One block of rows: two products into zero accumulators, added, plus the bias row stretched over the block. -/
theorem blockSage (x x' : Mat n K) (w w' : Mat K M) (b : Mat 1 M)
    (hs : (⟨2, ![1, M]⟩ : Shape).ShapeCasts ⟨2, ![1, M]⟩) (hb : (⟨2, ![1, M]⟩ : Shape).Broadcasts ⟨2, ![n, M]⟩) :
    addf (addf (matmul (matDot wf) none (truncf .bf16 x hbits) (truncf .bf16 w hbits) (constant ⟨2, ![n, M]⟩ .f32 0x00000000#32))
          (matmul (matDot wf) none (truncf .bf16 x' hbits) (truncf .bf16 w' hbits) (constant ⟨2, ![n, M]⟩ .f32 0x00000000#32)))
        (broadcastTo ⟨2, ![n, M]⟩ (shapeCast ⟨2, ![1, M]⟩ b hs) hb)
      = sage x x' w w' b := by
  rw [blockProduct, blockProduct, shapeCast_self]
  funext i
  obtain ⟨p, q, rfl⟩ : ∃ (p : Fin n) (q : Fin M), i = ix2 p q := ⟨i 0, i 1, eq_ix2 i⟩
  show product x w _ + product x' w' _ + broadcastTo ⟨2, ![n, M]⟩ b hb (ix2 p q) = _
  rw [broadcastTo_1b_ab_apply]
  rfl

end Block

/-- One block of rows of the normalisation: the four rows stretched over the block. -/
theorem blockBnAct (x : Mat n K) (mu s g be : Mat 1 K)
    (hs : (⟨2, ![1, K]⟩ : Shape).ShapeCasts ⟨2, ![1, K]⟩) (hb : (⟨2, ![1, K]⟩ : Shape).Broadcasts ⟨2, ![n, K]⟩) :
    maximumf (addf (mulf (broadcastTo ⟨2, ![n, K]⟩ (shapeCast ⟨2, ![1, K]⟩ g hs) hb)
            (mulf (subf x (broadcastTo ⟨2, ![n, K]⟩ (shapeCast ⟨2, ![1, K]⟩ mu hs) hb))
              (broadcastTo ⟨2, ![n, K]⟩ (shapeCast ⟨2, ![1, K]⟩ s hs) hb)))
          (broadcastTo ⟨2, ![n, K]⟩ (shapeCast ⟨2, ![1, K]⟩ be hs) hb))
        (broadcast ⟨2, ![n, K]⟩ (Scalar.ofBits (F := Ideal) .f32 0x00000000#32))
      = bnAct x mu s g be := by
  rw [shapeCast_self, shapeCast_self, shapeCast_self, shapeCast_self]
  funext i
  obtain ⟨p, q, rfl⟩ : ∃ (p : Fin n) (q : Fin K), i = ix2 p q := ⟨i 0, i 1, eq_ix2 i⟩
  show max (broadcastTo ⟨2, ![n, K]⟩ g hb (ix2 p q) * ((x (ix2 p q) - broadcastTo ⟨2, ![n, K]⟩ mu hb (ix2 p q))
      * broadcastTo ⟨2, ![n, K]⟩ s hb (ix2 p q)) + broadcastTo ⟨2, ![n, K]⟩ be hb (ix2 p q)) _ = _
  rw [broadcastTo_1b_ab_apply, broadcastTo_1b_ab_apply, broadcastTo_1b_ab_apply, broadcastTo_1b_ab_apply]
  rfl

/-! ## Row by row -/

theorem sage_at (H H' : Mat N K) (W W' : Mat K M) (B : Mat 1 M) (x x' : Mat n K) (w w' : Mat K M) (b : Mat 1 M)
    (j : (⟨2, ![n, M]⟩ : Shape).Idx) (i : (⟨2, ![N, M]⟩ : Shape).Idx)
    (hx : ∀ k : Fin K, x (ix2 (j 0) k) = H (ix2 (i 0) k)) (hx' : ∀ k : Fin K, x' (ix2 (j 0) k) = H' (ix2 (i 0) k))
    (hw : ∀ k : Fin K, w (ix2 k (j 1)) = W (ix2 k (i 1))) (hw' : ∀ k : Fin K, w' (ix2 k (j 1)) = W' (ix2 k (i 1)))
    (hb : b (ix2 (0 : Fin 1) (j 1)) = B (ix2 (0 : Fin 1) (i 1))) : sage x x' w w' b j = sage H H' W W' B i := by
  unfold sage
  rw [product_at H W x w j i hx hw, product_at H' W' x' w' j i hx' hw', hb]

theorem bnAct_at (X : Mat N K) (MU S G BE : Mat 1 K) (x : Mat n K) (mu s g be : Mat 1 K)
    (j : (⟨2, ![n, K]⟩ : Shape).Idx) (i : (⟨2, ![N, K]⟩ : Shape).Idx) (hx : x j = X i)
    (hmu : mu (ix2 (0 : Fin 1) (j 1)) = MU (ix2 (0 : Fin 1) (i 1))) (hs : s (ix2 (0 : Fin 1) (j 1)) = S (ix2 (0 : Fin 1) (i 1)))
    (hg : g (ix2 (0 : Fin 1) (j 1)) = G (ix2 (0 : Fin 1) (i 1))) (hbe : be (ix2 (0 : Fin 1) (j 1)) = BE (ix2 (0 : Fin 1) (i 1))) :
    bnAct x mu s g be j = bnAct X MU S G BE i := by
  unfold bnAct
  rw [hx, hmu, hs, hg, hbe]

/-! ## The whole-array spellings -/

theorem hostSage (wf : DotDims.WF ⟨2, ![n, K]⟩ ⟨2, ![K, M]⟩ ⟨2, ![n, M]⟩ [1] [0] [0] [1] [] [])
    (prec : Option ContractPrecision) (X X' : Mat n K) (W W' : Mat K M) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) :
    addf (addf (Host.dotGeneral (matDot wf) prec X W) (Host.dotGeneral (matDot wf) prec X' W'))
        (broadcastInDim ⟨2, ![n, M]⟩ ![0, 1] h2 (broadcastInDim ⟨2, ![1, M]⟩ ![1] h1 b))
      = sage X X' W W' (asRow b) := by
  rw [hostProduct, hostProduct, broadcastInDim_eq_asRow]
  funext i
  obtain ⟨p, q, rfl⟩ : ∃ (p : Fin n) (q : Fin M), i = ix2 p q := ⟨i 0, i 1, eq_ix2 i⟩
  show product X W _ + product X' W' _ + broadcastInDim ⟨2, ![n, M]⟩ ![0, 1] h2 (asRow b) (ix2 p q) = _
  rw [rows_of_oneRow]
  rfl

/-- The whole-array normalisation groups the three factors the other way. -/
theorem hostBnAct (X : Mat n K) (mu s g be : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![n, K]⟩ (![0, 1] : Fin 2 → Fin 2))
    (h0 : (⟨0, ![]⟩ : Shape).BroadcastsInDim ⟨2, ![n, K]⟩ (![] : Fin 0 → Fin 2)) :
    maximumf (addf (mulf (mulf (broadcastInDim ⟨2, ![n, K]⟩ ![0, 1] h2 (broadcastInDim ⟨2, ![1, K]⟩ ![1] h1 g))
              (subf X (broadcastInDim ⟨2, ![n, K]⟩ ![0, 1] h2 (broadcastInDim ⟨2, ![1, K]⟩ ![1] h1 mu))))
            (broadcastInDim ⟨2, ![n, K]⟩ ![0, 1] h2 (broadcastInDim ⟨2, ![1, K]⟩ ![1] h1 s)))
          (broadcastInDim ⟨2, ![n, K]⟩ ![0, 1] h2 (broadcastInDim ⟨2, ![1, K]⟩ ![1] h1 be)))
        (broadcastInDim ⟨2, ![n, K]⟩ ![] h0 (constant ⟨0, ![]⟩ .f32 0x00000000#32))
      = bnAct X (asRow mu) (asRow s) (asRow g) (asRow be) := by
  rw [broadcastInDim_eq_asRow, broadcastInDim_eq_asRow, broadcastInDim_eq_asRow, broadcastInDim_eq_asRow]
  funext i
  obtain ⟨p, q, rfl⟩ : ∃ (p : Fin n) (q : Fin K), i = ix2 p q := ⟨i 0, i 1, eq_ix2 i⟩
  show max (broadcastInDim ⟨2, ![n, K]⟩ ![0, 1] h2 (asRow g) (ix2 p q)
        * (X (ix2 p q) - broadcastInDim ⟨2, ![n, K]⟩ ![0, 1] h2 (asRow mu) (ix2 p q))
        * broadcastInDim ⟨2, ![n, K]⟩ ![0, 1] h2 (asRow s) (ix2 p q)
      + broadcastInDim ⟨2, ![n, K]⟩ ![0, 1] h2 (asRow be) (ix2 p q)) _ = _
  rw [rows_of_oneRow, rows_of_oneRow, rows_of_oneRow, rows_of_oneRow, mul_assoc]
  rfl

end Cert.Net

end
-- ==== Proof.RefLayers.lean ====
/-
  The reference, layer by layer: each dense layer it spells with dot_general, broadcasts, add and maximum is the
  whole-array layer function of the values feeding it.
-/
import proofs.«114462_j4672924418435_1_alg».proof.Proof.Gen.ReferenceIdeal.Read
import proofs.«114462_j4672924418435_1_alg».proof.Proof.Net

set_option maxRecDepth 16384

noncomputable section

namespace Cert.ReferenceIdeal.Layers

open Cert.ReferenceIdeal Cert.ReferenceIdeal.Gen Cert.ReferenceIdeal.Read Idealize.ShloMosaic Idealize.ShloMosaic.ValueIdx Cert.Gcn Cert.Net Cert.Lib

theorem d128 : dot_S50000x128_S128x256_S50000x256_1_0_0_1_n_n = matDot dot_S50000x128_S128x256_S50000x256_1_0_0_1_n_n_wf := rfl
theorem d256 : dot_S50000x256_S256x256_S50000x256_1_0_0_1_n_n = matDot dot_S50000x256_S256x256_S50000x256_1_0_0_1_n_n_wf := rfl
theorem d512 : dot_S50000x512_S512x128_S50000x128_1_0_0_1_n_n = matDot dot_S50000x512_S512x128_S50000x128_1_0_0_1_n_n_wf := rfl
theorem d64 : dot_S50000x128_S128x64_S50000x64_1_0_0_1_n_n = matDot dot_S50000x128_S128x64_S50000x64_1_0_0_1_n_n_wf := rfl

/-- The first local layer. -/
theorem local1 (x0 : (⟨S50000x128, .f32⟩ : BufTy).Contents (Elt Ideal)) (x1 : (⟨S600000, .i32⟩ : BufTy).Contents (Elt Ideal)) (x2 : (⟨S600000, .i32⟩ : BufTy).Contents (Elt Ideal)) (x5 : (⟨S128x256, .f32⟩ : BufTy).Contents (Elt Ideal)) (x6 : (⟨S128x256, .f32⟩ : BufTy).Contents (Elt Ideal)) (x7 : (⟨S256, .f32⟩ : BufTy).Contents (Elt Ideal)) :
    val_main_v25 (F := Ideal) x0 x1 x2 x5 x6 x7 = relu (sage x0 (val_main_v18 (F := Ideal) x0 x1 x2) x5 x6 (asRow x7)) := by
  unfold val_main_v25 val_main_v24 val_main_v21 val_main_v19 val_main_v20 val_main_v23 val_main_v22 val_main_call0_v0 val_main_call0_cst
  rw [d128, hostSage]
  rfl

/-- The second local layer. -/
theorem local2 (x0 : (⟨S50000x128, .f32⟩ : BufTy).Contents (Elt Ideal)) (x1 : (⟨S600000, .i32⟩ : BufTy).Contents (Elt Ideal)) (x2 : (⟨S600000, .i32⟩ : BufTy).Contents (Elt Ideal)) (x5 : (⟨S128x256, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) :
    val_main_v51 (F := Ideal) x0 x1 x2 x5 x6 x7 x8 x9 x10 = relu (sage (val_main_v25 (F := Ideal) x0 x1 x2 x5 x6 x7) (val_main_v44 (F := Ideal) x0 x1 x2 x5 x6 x7) x8 x9 (asRow x10)) := by
  unfold val_main_v51 val_main_v50 val_main_v47 val_main_v45 val_main_v46 val_main_v49 val_main_v48 val_main_call1_v0 val_main_call1_cst
  rw [d256, hostSage]
  rfl

/-- The third local layer. -/
theorem local3 (x0 : (⟨S50000x128, .f32⟩ : BufTy).Contents (Elt Ideal)) (x1 : (⟨S600000, .i32⟩ : BufTy).Contents (Elt Ideal)) (x2 : (⟨S600000, .i32⟩ : BufTy).Contents (Elt Ideal)) (x5 : (⟨S128x256, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x256, .f32⟩ : BufTy).Contents (Elt Ideal)) (x13 : (⟨S256, .f32⟩ : BufTy).Contents (Elt Ideal)) :
    val_main_v76 (F := Ideal) x0 x1 x2 x5 x6 x7 x8 x9 x10 x11 x12 x13 = sage (val_main_v51 (F := Ideal) x0 x1 x2 x5 x6 x7 x8 x9 x10) (val_main_v70 (F := Ideal) x0 x1 x2 x5 x6 x7 x8 x9 x10) x11 x12 (asRow x13) := by
  unfold val_main_v76 val_main_v73 val_main_v71 val_main_v72 val_main_v75 val_main_v74
  rw [d256, hostSage]

/-- The first global layer. -/
theorem global1 (x0 : (⟨S50000x128, .f32⟩ : BufTy).Contents (Elt Ideal)) (x3 : (⟨S800000, .i32⟩ : BufTy).Contents (Elt Ideal)) (x4 : (⟨S800000, .i32⟩ : BufTy).Contents (Elt Ideal)) (x14 : (⟨S128x256, .f32⟩ : BufTy).Contents (Elt Ideal)) (x15 : (⟨S128x256, .f32⟩ : BufTy).Contents (Elt Ideal)) (x16 : (⟨S256, .f32⟩ : BufTy).Contents (Elt Ideal)) :
    val_main_v102 (F := Ideal) x0 x3 x4 x14 x15 x16 = relu (sage x0 (val_main_v95 (F := Ideal) x0 x3 x4) x14 x15 (asRow x16)) := by
  unfold val_main_v102 val_main_v101 val_main_v98 val_main_v96 val_main_v97 val_main_v100 val_main_v99 val_main_call2_v0 val_main_call2_cst
  rw [d128, hostSage]
  rfl

/-- The second global layer. -/
theorem global2 (x0 : (⟨S50000x128, .f32⟩ : BufTy).Contents (Elt Ideal)) (x3 : (⟨S800000, .i32⟩ : BufTy).Contents (Elt Ideal)) (x4 : (⟨S800000, .i32⟩ : BufTy).Contents (Elt Ideal)) (x14 : (⟨S128x256, .f32⟩ : BufTy).Contents (Elt Ideal)) (x15 : (⟨S128x256, .f32⟩ : BufTy).Contents (Elt Ideal)) (x16 : (⟨S256, .f32⟩ : BufTy).Contents (Elt Ideal)) (x17 : (⟨S256x256, .f32⟩ : BufTy).Contents (Elt Ideal)) (x18 : (⟨S256x256, .f32⟩ : BufTy).Contents (Elt Ideal)) (x19 : (⟨S256, .f32⟩ : BufTy).Contents (Elt Ideal)) :
    val_main_v127 (F := Ideal) x0 x3 x4 x14 x15 x16 x17 x18 x19 = sage (val_main_v102 (F := Ideal) x0 x3 x4 x14 x15 x16) (val_main_v121 (F := Ideal) x0 x3 x4 x14 x15 x16) x17 x18 (asRow x19) := by
  unfold val_main_v127 val_main_v124 val_main_v122 val_main_v123 val_main_v126 val_main_v125
  rw [d256, hostSage]

/-- The first head layer. -/
theorem head1 (x0 : (⟨S50000x128, .f32⟩ : BufTy).Contents (Elt Ideal)) (x1 : (⟨S600000, .i32⟩ : BufTy).Contents (Elt Ideal)) (x2 : (⟨S600000, .i32⟩ : BufTy).Contents (Elt Ideal)) (x3 : (⟨S800000, .i32⟩ : BufTy).Contents (Elt Ideal)) (x4 : (⟨S800000, .i32⟩ : BufTy).Contents (Elt Ideal)) (x5 : (⟨S128x256, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x256, .f32⟩ : BufTy).Contents (Elt Ideal)) (x13 : (⟨S256, .f32⟩ : BufTy).Contents (Elt Ideal)) (x14 : (⟨S128x256, .f32⟩ : BufTy).Contents (Elt Ideal)) (x15 : (⟨S128x256, .f32⟩ : BufTy).Contents (Elt Ideal)) (x16 : (⟨S256, .f32⟩ : BufTy).Contents (Elt Ideal)) (x17 : (⟨S256x256, .f32⟩ : BufTy).Contents (Elt Ideal)) (x18 : (⟨S256x256, .f32⟩ : BufTy).Contents (Elt Ideal)) (x19 : (⟨S256, .f32⟩ : BufTy).Contents (Elt Ideal)) (x20 : (⟨S512x128, .f32⟩ : BufTy).Contents (Elt Ideal)) (x21 : (⟨S128, .f32⟩ : BufTy).Contents (Elt Ideal)) :
    val_main_v132 (F := Ideal) x0 x1 x2 x3 x4 x5 x6 x7 x8 x9 x10 x11 x12 x13 x14 x15 x16 x17 x18 x19 x20 x21 = affine (val_main_v128 (F := Ideal) x0 x1 x2 x3 x4 x5 x6 x7 x8 x9 x10 x11 x12 x13 x14 x15 x16 x17 x18 x19) x20 (asRow x21) := by
  unfold val_main_v132 val_main_v129 val_main_v131 val_main_v130
  rw [d512, hostAffine]

/-- The head: normalisation with the batch's mean and inverse deviation, rectifier, last affine layer. -/
theorem head2 (x0 : (⟨S50000x128, .f32⟩ : BufTy).Contents (Elt Ideal)) (x1 : (⟨S600000, .i32⟩ : BufTy).Contents (Elt Ideal)) (x2 : (⟨S600000, .i32⟩ : BufTy).Contents (Elt Ideal)) (x3 : (⟨S800000, .i32⟩ : BufTy).Contents (Elt Ideal)) (x4 : (⟨S800000, .i32⟩ : BufTy).Contents (Elt Ideal)) (x5 : (⟨S128x256, .f32⟩ : BufTy).Contents (Elt Ideal)) (x6 : (⟨S128x256, .f32⟩ : BufTy).Contents (Elt Ideal)) (x7 : (⟨S256, .f32⟩ : BufTy).Contents (Elt Ideal)) (x8 : (⟨S256x256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256x256, .f32⟩ : BufTy).Contents (Elt Ideal)) (x13 : (⟨S256, .f32⟩ : BufTy).Contents (Elt Ideal)) (x14 : (⟨S128x256, .f32⟩ : BufTy).Contents (Elt Ideal)) (x15 : (⟨S128x256, .f32⟩ : BufTy).Contents (Elt Ideal)) (x16 : (⟨S256, .f32⟩ : BufTy).Contents (Elt Ideal)) (x17 : (⟨S256x256, .f32⟩ : BufTy).Contents (Elt Ideal)) (x18 : (⟨S256x256, .f32⟩ : BufTy).Contents (Elt Ideal)) (x19 : (⟨S256, .f32⟩ : BufTy).Contents (Elt Ideal)) (x20 : (⟨S512x128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128x64, .f32⟩ : BufTy).Contents (Elt Ideal)) (x25 : (⟨S64, .f32⟩ : BufTy).Contents (Elt Ideal)) :
    val_main_v162 (F := Ideal) x0 x1 x2 x3 x4 x5 x6 x7 x8 x9 x10 x11 x12 x13 x14 x15 x16 x17 x18 x19 x20 x21 x22 x23 x24 x25
      = bnHead (val_main_v132 (F := Ideal) x0 x1 x2 x3 x4 x5 x6 x7 x8 x9 x10 x11 x12 x13 x14 x15 x16 x17 x18 x19 x20 x21) (asRow (val_main_v135 (F := Ideal) x0 x1 x2 x3 x4 x5 x6 x7 x8 x9 x10 x11 x12 x13 x14 x15 x16 x17 x18 x19 x20 x21))
          (asRow (val_main_v151 (F := Ideal) x0 x1 x2 x3 x4 x5 x6 x7 x8 x9 x10 x11 x12 x13 x14 x15 x16 x17 x18 x19 x20 x21)) (asRow x22) (asRow x23) x24 (asRow x25) := by
  unfold val_main_v162 val_main_v159 val_main_v161 val_main_v160
  rw [d64, hostAffine]
  unfold bnHead
  refine congrArg (fun y => affine y x24 (asRow x25)) ?_
  unfold val_main_v158 val_main_v157 val_main_v154 val_main_v148 val_main_v147 val_main_v146 val_main_v145 val_main_v144 val_main_v143
    val_main_v153 val_main_v152 val_main_v156 val_main_v155 val_main_call3_v0 val_main_call3_cst
  exact hostBnAct _ _ _ _ _ _ _ _

end Cert.ReferenceIdeal.Layers

end
-- ==== Proof.Layer0.lean ====
/-
  Layer 0: one grid point takes 2000 consecutive rows of the node features and of the neighbour means, the two
  weight matrices and the bias row whole, and writes the 2000 corresponding rows of
  max (H·W + H'·W' + b) 0.
  Row r of the result depends on row r of the two row-indexed operands only, so the 25 blocks together are that
  function of the whole arrays.
-/
import proofs.«114462_j4672924418435_1_alg».proof.Proof.Gen.KernelIdeal.Frame
import proofs.«114462_j4672924418435_1_alg».proof.Proof.Net
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.ShloMosaic.ValueIdx
open Idealize.SL.Sem Cert.Gcn Cert.Net Cert.Lib
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's stored value is the layer of the block's rows. -/
theorem pay (x0 x1 : FVec Ideal S2000x128 .f32) (x2 x3 : FVec Ideal S128x256 .f32) (x4 : FVec Ideal S1x256 .f32) :
    k0_pay1 x0 x2 x1 x3 x4 = relu (sage x0 x1 x2 x3 x4) := by
  unfold k0_pay1
  dsimp only
  rw [show dot_S2000x128_S128x256_S2000x256_1_0_0_1_n_n = matDot dot_S2000x128_S128x256_S2000x256_1_0_0_1_n_n_wf from rfl]
  simp only [shapeCast_self (s := S2000x128)]
  rw [blockSage]
  rfl

/-- The windows' index maps over the grid: the row-indexed windows move with the output, the others stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer of the whole arrays. -/
theorem flushed_eq (c : Dev nD) (t : Fin cfg0.N) :
    (dat0 V c).flushed 5 t = ((cfg0.win 5).blk t).view.read (Elt Ideal)
      (relu (sage (V c main_arg0) (V c main_v24) (V c main_arg5) (V c main_arg6) (V c main_call0_v0))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  rw [pay]
  obtain ⟨e00, e01, e10, e11, e20, e21, e30, e31, e40, e41, e50, e51⟩ := idx_facts t
  funext j
  have hj0 : (j 0).val < 2000 := (j 0).isLt
  have hj1 : (j 1).val < 256 := (j 1).isLt
  refine relu_at _ _ j _ (sage_at (V c main_arg0) (V c main_v24) (V c main_arg5) (V c main_arg6) (V c main_call0_v0)
    (iblk0 V c 0 t) (iblk0 V c 1 t) (iblk0 V c 2 t) (iblk0 V c 3 t) (iblk0 V c 4 t) j
    (((cfg0.win 5).blk t).view.emb j) ?_ ?_ ?_ ?_ ?_)
  · intro k
    show V c main_arg0 (((cfg0.win 0).blk t).view.emb (ix2 (j 0) k)) = _
    refine congrArg (V c main_arg0) (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  · intro k
    show V c main_v24 (((cfg0.win 1).blk t).view.emb (ix2 (j 0) k)) = _
    refine congrArg (V c main_v24) (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  · intro k
    show V c main_arg5 (((cfg0.win 2).blk t).view.emb (ix2 k (j 1))) = _
    refine congrArg (V c main_arg5) (funext fun a => Fin.ext ?_)
    match a with
    | ⟨0, _⟩ => show win0_2.index t (0 : Fin 2) * 128 + 1 * k.val = k.val; omega
    | ⟨1, _⟩ => show win0_2.index t (1 : Fin 2) * 256 + 1 * (j 1).val = win0_5.index t (1 : Fin 2) * 256 + 1 * (j 1).val; omega
  · intro k
    show V c main_arg6 (((cfg0.win 3).blk t).view.emb (ix2 k (j 1))) = _
    refine congrArg (V c main_arg6) (funext fun a => Fin.ext ?_)
    match a with
    | ⟨0, _⟩ => show win0_3.index t (0 : Fin 2) * 128 + 1 * k.val = k.val; omega
    | ⟨1, _⟩ => show win0_3.index t (1 : Fin 2) * 256 + 1 * (j 1).val = win0_5.index t (1 : Fin 2) * 256 + 1 * (j 1).val; omega
  · show V c main_call0_v0 (((cfg0.win 4).blk t).view.emb (ix2 (0 : Fin 1) (j 1))) = _
    refine congrArg (V c main_call0_v0) (funext fun a => Fin.ext ?_)
    match a with
    | ⟨0, _⟩ => show win0_4.index t (0 : Fin 2) * 1 + 1 * 0 = 0; omega
    | ⟨1, _⟩ => show win0_4.index t (1 : Fin 2) * 256 + 1 * (j 1).val = win0_5.index t (1 : Fin 2) * 256 + 1 * (j 1).val; omega

/-- An index of the result is in point t's block iff each coordinate is in the block's range. -/
theorem mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v25).slice (win0_5.rect t)).set ↔ _
  rw [View.set_slice_whole, Rect.mem_set_unit]
  exact Iff.rfl

/-- Row r lies in the block of point r / 2000. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : grid0.N = 25 := N_0
  have ht : (i 0).val / 2000 < cfg0.N := by show (i 0).val / 2000 < grid0.N; omega
  obtain ⟨e00, e01, e10, e11, e20, e21, e30, e31, e40, e41, e50, e51⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    omega

/-- The result array after the region: the layer of the arrays the region found. -/
theorem out (c : Dev nD) : (dat0 V c).arrAt 5 cfg0.N
    = relu (sage (V c main_arg0) (V c main_v24) (V c main_arg5) (V c main_arg6) (V c main_call0_v0)) :=
  (dat0 V c).arrAt_eq_of_cover 5 _ (fun t _ => flushed_eq V c t) cover

end Cert.KernelIdeal.Layer0

end
-- ==== Proof.Layer1.lean ====
/-
  Layer 1: one grid point takes 2000 consecutive rows of the node features and of the neighbour means, the two
  weight matrices and the bias row whole, and writes the 2000 corresponding rows of
  max (H·W + H'·W' + b) 0.
  Row r of the result depends on row r of the two row-indexed operands only, so the 25 blocks together are that
  function of the whole arrays.
-/
import proofs.«114462_j4672924418435_1_alg».proof.Proof.Gen.KernelIdeal.Frame
import proofs.«114462_j4672924418435_1_alg».proof.Proof.Net
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem Cert.Gcn Cert.Net Cert.Lib
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's stored value is the layer of the block's rows. -/
theorem pay (x0 x1 : FVec Ideal S2000x256 .f32) (x2 x3 : FVec Ideal S256x256 .f32) (x4 : FVec Ideal S1x256 .f32) :
    k1_pay1 x0 x2 x1 x3 x4 = relu (sage x0 x1 x2 x3 x4) := by
  unfold k1_pay1
  dsimp only
  rw [show dot_S2000x256_S256x256_S2000x256_1_0_0_1_n_n = matDot dot_S2000x256_S256x256_S2000x256_1_0_0_1_n_n_wf from rfl]
  simp only [shapeCast_self (s := S2000x256)]
  rw [blockSage]
  rfl

/-- The windows' index maps over the grid: the row-indexed windows move with the output, the others stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer of the whole arrays. -/
theorem flushed_eq (c : Dev nD) (t : Fin cfg1.N) :
    (dat1 V c).flushed 5 t = ((cfg1.win 5).blk t).view.read (Elt Ideal)
      (relu (sage (V c main_v25) (V c main_v38) (V c main_arg8) (V c main_arg9) (V c main_call1_v0))) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  rw [pay]
  obtain ⟨e00, e01, e10, e11, e20, e21, e30, e31, e40, e41, e50, e51⟩ := idx_facts t
  funext j
  have hj0 : (j 0).val < 2000 := (j 0).isLt
  have hj1 : (j 1).val < 256 := (j 1).isLt
  refine relu_at _ _ j _ (sage_at (V c main_v25) (V c main_v38) (V c main_arg8) (V c main_arg9) (V c main_call1_v0)
    (iblk1 V c 0 t) (iblk1 V c 1 t) (iblk1 V c 2 t) (iblk1 V c 3 t) (iblk1 V c 4 t) j
    (((cfg1.win 5).blk t).view.emb j) ?_ ?_ ?_ ?_ ?_)
  · intro k
    show V c main_v25 (((cfg1.win 0).blk t).view.emb (ix2 (j 0) k)) = _
    refine congrArg (V c main_v25) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * k.val = k.val; omega
  · intro k
    show V c main_v38 (((cfg1.win 1).blk t).view.emb (ix2 (j 0) k)) = _
    refine congrArg (V c main_v38) (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 256 + 1 * k.val = k.val; omega
  · intro k
    show V c main_arg8 (((cfg1.win 2).blk t).view.emb (ix2 k (j 1))) = _
    refine congrArg (V c main_arg8) (funext fun a => Fin.ext ?_)
    match a with
    | ⟨0, _⟩ => show win1_2.index t (0 : Fin 2) * 256 + 1 * k.val = k.val; omega
    | ⟨1, _⟩ => show win1_2.index t (1 : Fin 2) * 256 + 1 * (j 1).val = win1_5.index t (1 : Fin 2) * 256 + 1 * (j 1).val; omega
  · intro k
    show V c main_arg9 (((cfg1.win 3).blk t).view.emb (ix2 k (j 1))) = _
    refine congrArg (V c main_arg9) (funext fun a => Fin.ext ?_)
    match a with
    | ⟨0, _⟩ => show win1_3.index t (0 : Fin 2) * 256 + 1 * k.val = k.val; omega
    | ⟨1, _⟩ => show win1_3.index t (1 : Fin 2) * 256 + 1 * (j 1).val = win1_5.index t (1 : Fin 2) * 256 + 1 * (j 1).val; omega
  · show V c main_call1_v0 (((cfg1.win 4).blk t).view.emb (ix2 (0 : Fin 1) (j 1))) = _
    refine congrArg (V c main_call1_v0) (funext fun a => Fin.ext ?_)
    match a with
    | ⟨0, _⟩ => show win1_4.index t (0 : Fin 2) * 1 + 1 * 0 = 0; omega
    | ⟨1, _⟩ => show win1_4.index t (1 : Fin 2) * 256 + 1 * (j 1).val = win1_5.index t (1 : Fin 2) * 256 + 1 * (j 1).val; omega

/-- An index of the result is in point t's block iff each coordinate is in the block's range. -/
theorem mem_blk (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v39).slice (win1_5.rect t)).set ↔ _
  rw [View.set_slice_whole, Rect.mem_set_unit]
  exact Iff.rfl

/-- Row r lies in the block of point r / 2000. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : grid1.N = 25 := N_1
  have ht : (i 0).val / 2000 < cfg1.N := by show (i 0).val / 2000 < grid1.N; omega
  obtain ⟨e00, e01, e10, e11, e20, e21, e30, e31, e40, e41, e50, e51⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, ht⟩ (1 : Fin 2) * 256 ≤ (i 1).val
      ∧ (i 1).val < win1_5.index ⟨(i 0).val / 2000, ht⟩ (1 : Fin 2) * 256 + 256
    omega

/-- The result array after the region: the layer of the arrays the region found. -/
theorem out (c : Dev nD) : (dat1 V c).arrAt 5 cfg1.N
    = relu (sage (V c main_v25) (V c main_v38) (V c main_arg8) (V c main_arg9) (V c main_call1_v0)) :=
  (dat1 V c).arrAt_eq_of_cover 5 _ (fun t _ => flushed_eq V c t) cover

end Cert.KernelIdeal.Layer1

end
-- ==== Proof.Layer2.lean ====
/-
  Layer 2: one grid point takes 2000 consecutive rows of the node features and of the neighbour means, the two
  weight matrices and the bias row whole, and writes the 2000 corresponding rows of
  H·W + H'·W' + b.
  Row r of the result depends on row r of the two row-indexed operands only, so the 25 blocks together are that
  function of the whole arrays.
-/
import proofs.«114462_j4672924418435_1_alg».proof.Proof.Gen.KernelIdeal.Frame
import proofs.«114462_j4672924418435_1_alg».proof.Proof.Net
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL.Sem Cert.Gcn Cert.Net Cert.Lib
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's stored value is the layer of the block's rows. -/
theorem pay (x0 x1 : FVec Ideal S2000x256 .f32) (x2 x3 : FVec Ideal S256x256 .f32) (x4 : FVec Ideal S1x256 .f32) :
    k2_pay1 x0 x2 x1 x3 x4 = sage x0 x1 x2 x3 x4 := by
  unfold k2_pay1
  dsimp only
  rw [show dot_S2000x256_S256x256_S2000x256_1_0_0_1_n_n = matDot dot_S2000x256_S256x256_S2000x256_1_0_0_1_n_n_wf from rfl]
  simp only [shapeCast_self (s := S2000x256)]
  rw [blockSage]

/-- The windows' index maps over the grid: the row-indexed windows move with the output, the others stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer of the whole arrays. -/
theorem flushed_eq (c : Dev nD) (t : Fin cfg2.N) :
    (dat2 V c).flushed 5 t = ((cfg2.win 5).blk t).view.read (Elt Ideal)
      ((sage (V c main_v39) (V c main_v52) (V c main_arg11) (V c main_arg12) (V c main_call2_v0))) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  rw [pay]
  obtain ⟨e00, e01, e10, e11, e20, e21, e30, e31, e40, e41, e50, e51⟩ := idx_facts t
  funext j
  have hj0 : (j 0).val < 2000 := (j 0).isLt
  have hj1 : (j 1).val < 256 := (j 1).isLt
  refine (sage_at (V c main_v39) (V c main_v52) (V c main_arg11) (V c main_arg12) (V c main_call2_v0)
    (iblk2 V c 0 t) (iblk2 V c 1 t) (iblk2 V c 2 t) (iblk2 V c 3 t) (iblk2 V c 4 t) j
    (((cfg2.win 5).blk t).view.emb j) ?_ ?_ ?_ ?_ ?_)
  · intro k
    show V c main_v39 (((cfg2.win 0).blk t).view.emb (ix2 (j 0) k)) = _
    refine congrArg (V c main_v39) (funext fun a => Fin.ext ?_)
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 256 + 1 * k.val = k.val; omega
  · intro k
    show V c main_v52 (((cfg2.win 1).blk t).view.emb (ix2 (j 0) k)) = _
    refine congrArg (V c main_v52) (funext fun a => Fin.ext ?_)
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 256 + 1 * k.val = k.val; omega
  · intro k
    show V c main_arg11 (((cfg2.win 2).blk t).view.emb (ix2 k (j 1))) = _
    refine congrArg (V c main_arg11) (funext fun a => Fin.ext ?_)
    match a with
    | ⟨0, _⟩ => show win2_2.index t (0 : Fin 2) * 256 + 1 * k.val = k.val; omega
    | ⟨1, _⟩ => show win2_2.index t (1 : Fin 2) * 256 + 1 * (j 1).val = win2_5.index t (1 : Fin 2) * 256 + 1 * (j 1).val; omega
  · intro k
    show V c main_arg12 (((cfg2.win 3).blk t).view.emb (ix2 k (j 1))) = _
    refine congrArg (V c main_arg12) (funext fun a => Fin.ext ?_)
    match a with
    | ⟨0, _⟩ => show win2_3.index t (0 : Fin 2) * 256 + 1 * k.val = k.val; omega
    | ⟨1, _⟩ => show win2_3.index t (1 : Fin 2) * 256 + 1 * (j 1).val = win2_5.index t (1 : Fin 2) * 256 + 1 * (j 1).val; omega
  · show V c main_call2_v0 (((cfg2.win 4).blk t).view.emb (ix2 (0 : Fin 1) (j 1))) = _
    refine congrArg (V c main_call2_v0) (funext fun a => Fin.ext ?_)
    match a with
    | ⟨0, _⟩ => show win2_4.index t (0 : Fin 2) * 1 + 1 * 0 = 0; omega
    | ⟨1, _⟩ => show win2_4.index t (1 : Fin 2) * 256 + 1 * (j 1).val = win2_5.index t (1 : Fin 2) * 256 + 1 * (j 1).val; omega

/-- An index of the result is in point t's block iff each coordinate is in the block's range. -/
theorem mem_blk (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v53).slice (win2_5.rect t)).set ↔ _
  rw [View.set_slice_whole, Rect.mem_set_unit]
  exact Iff.rfl

/-- Row r lies in the block of point r / 2000. -/
theorem cover (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : grid2.N = 25 := N_2
  have ht : (i 0).val / 2000 < cfg2.N := by show (i 0).val / 2000 < grid2.N; omega
  obtain ⟨e00, e01, e10, e11, e20, e21, e30, e31, e40, e41, e50, e51⟩ := idx_facts ⟨(i 0).val / 2000, ht⟩
  refine ⟨⟨(i 0).val / 2000, ht⟩, flush2_5 _, ?_⟩
  rw [mem_blk]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win2_5.index ⟨(i 0).val / 2000, ht⟩ (1 : Fin 2) * 256 ≤ (i 1).val
      ∧ (i 1).val < win2_5.index ⟨(i 0).val / 2000, ht⟩ (1 : Fin 2) * 256 + 256
    omega

/-- The result array after the region: the layer of the arrays the region found. -/
theorem out (c : Dev nD) : (dat2 V c).arrAt 5 cfg2.N
    = (sage (V c main_v39) (V c main_v52) (V c main_arg11) (V c main_arg12) (V c main_call2_v0)) :=
  (dat2 V c).arrAt_eq_of_cover 5 _ (fun t _ => flushed_eq V c t) cover

end Cert.KernelIdeal.Layer2

end
-- ==== Proof.Layer3.lean ====
/-
  Layer 3: one grid point takes 2000 consecutive rows of the node features and of the neighbour means, the two
  weight matrices and the bias row whole, and writes the 2000 corresponding rows of
  max (H·W + H'·W' + b) 0.
  Row r of the result depends on row r of the two row-indexed operands only, so the 25 blocks together are that
  function of the whole arrays.
-/
import proofs.«114462_j4672924418435_1_alg».proof.Proof.Gen.KernelIdeal.Frame
import proofs.«114462_j4672924418435_1_alg».proof.Proof.Net
import Idealize.ShloMosaic.Lib.Pipeline.Value

set_option maxRecDepth 16384

noncomputable section

namespace Cert.KernelIdeal.Layer3

open Cert.KernelIdeal Cert.KernelIdeal.Gen Idealize.ShloMosaic Idealize.ShloMosaic.TcCoe Idealize.ShloMosaic.ValueIdx
open Idealize.SL.Sem Cert.Gcn Cert.Net Cert.Lib
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's stored value is the layer of the block's rows. -/
theorem pay (x0 x1 : FVec Ideal S2000x128 .f32) (x2 x3 : FVec Ideal S128x256 .f32) (x4 : FVec Ideal S1x256 .f32) :
    k3_pay1 x0 x2 x1 x3 x4 = relu (sage x0 x1 x2 x3 x4) := by
  unfold k3_pay1
  dsimp only
  rw [show dot_S2000x128_S128x256_S2000x256_1_0_0_1_n_n = matDot dot_S2000x128_S128x256_S2000x256_1_0_0_1_n_n_wf from rfl]
  simp only [shapeCast_self (s := S2000x128)]
  rw [blockSage]
  rfl

/-- The windows' index maps over the grid: the row-indexed windows move with the output, the others stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point t writes back is block t of the layer of the whole arrays. -/
theorem flushed_eq (c : Dev nD) (t : Fin cfg3.N) :
    (dat3 V c).flushed 5 t = ((cfg3.win 5).blk t).view.read (Elt Ideal)
      (relu (sage (V c main_arg0) (V c main_v66) (V c main_arg14) (V c main_arg15) (V c main_call3_v0))) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x256) hz, View.ld_unit_zero (S := S1x256) hz]
  rw [pay]
  obtain ⟨e00, e01, e10, e11, e20, e21, e30, e31, e40, e41, e50, e51⟩ := idx_facts t
  funext j
  have hj0 : (j 0).val < 2000 := (j 0).isLt
  have hj1 : (j 1).val < 256 := (j 1).isLt
  refine relu_at _ _ j _ (sage_at (V c main_arg0) (V c main_v66) (V c main_arg14) (V c main_arg15) (V c main_call3_v0)
    (iblk3 V c 0 t) (iblk3 V c 1 t) (iblk3 V c 2 t) (iblk3 V c 3 t) (iblk3 V c 4 t) j
    (((cfg3.win 5).blk t).view.emb j) ?_ ?_ ?_ ?_ ?_)
  · intro k
    show V c main_arg0 (((cfg3.win 0).blk t).view.emb (ix2 (j 0) k)) = _
    refine congrArg (V c main_arg0) (funext fun a => Fin.ext ?_)
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 128 + 1 * k.val = k.val; omega
  · intro k
    show V c main_v66 (((cfg3.win 1).blk t).view.emb (ix2 (j 0) k)) = _
    refine congrArg (V c main_v66) (funext fun a => Fin.ext ?_)
    match a with
    | ⟨0, _⟩ => show win3_1.index t (0 : Fin 2) * 2000 + 1 * (j 0).val = win3_5.index t (0 : Fin 2) * 2000 + 1 * (j 0).val; omega
    | ⟨1, _⟩ => show win3_1.index t (1 : Fin 2) * 128 + 1 * k.val = k.val; omega
  · intro k
    show V c main_arg14 (((cfg3.win 2).blk t).view.emb (ix2 k (j 1))) = _
    refine congrArg (V c main_arg14) (funext fun a => Fin.ext ?_)
    match a with
    | ⟨0, _⟩ => show win3_2.index t (0 : Fin 2) * 128 + 1 * k.val = k.val; omega
    | ⟨1, _⟩ => show win3_2.index t (1 : Fin 2) * 256 + 1 * (j 1).val = win3_5.index t (1 : Fin 2) * 256 + 1 * (j 1).val; omega
  · intro k
    show V c main_arg15 (((cfg3.win 3).blk t).view.emb (ix2 k (j 1))) = _
    refine congrArg (V c main_arg15) (funext fun a => Fin.ext ?_)
    match a with
    | ⟨0, _⟩ => show win3_3.index t (0 : Fin 2) * 128 + 1 * k.val = k.val; omega
    | ⟨1, _⟩ => show win3_3.index t (1 : Fin 2) * 256 + 1 * (j 1).val = win3_5.index t (1 : Fin 2) * 256 + 1 * (j 1).val; omega
  · show V c main_call3_v0 (((cfg3.win 4).blk t).view.emb (ix2 (0 : Fin 1) (j 1))) = _
    refine congrArg (V c main_call3_v0) (funext fun a => Fin.ext ?_)
    match a with
    | ⟨0, _⟩ => show win3_4.index t (0 : Fin 2) * 1 + 1 * 0 = 0; omega
    | ⟨1, _⟩ => show win3_4.index t (1 : Fin 2) * 256 + 1 * (j 1).val = win3_5.index t (1 : Fin 2) * 256 + 1 * (j 1).val; omega

/-- An index of the result is in point t's block iff each coordinate is in the block's range. -/
theorem mem_blk (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v67).slice (win3_5.rect t)).set ↔ _
  rw [View.set_slice_whole, Rect.mem_set_unit]
  exact Iff.rfl

/-- Row r lies in the block of point r / 2000. -/
theorem cover (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hN : grid3.N = 25 := N_3
  have ht : (i 0).val / 2000 < cfg3.N := by show (i 0).val / 2000 < grid3.N; omega
  obtain ⟨e00, e01, e10, e11, e20, e21, e30, e31, e40, e41, e50, e51⟩ := idx_facts ⟨(i 0).val / 2000, ht⟩
  refine ⟨⟨(i 0).val / 2000, ht⟩, flush3_5 _, ?_⟩
  rw [mem_blk]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win3_5.index ⟨(i 0).val / 2000, ht⟩ (1 : Fin 2) * 256 ≤ (i 1).val
      ∧ (i 1).val < win3_5.index ⟨(i 0).val / 2000, ht⟩ (1 : Fin 2) * 256 + 256
    omega

/-- The result array after the region: the layer of the arrays the region found. -/
theorem out (c : Dev nD) : (dat3 V c).arrAt 5 cfg3.N
    = relu (sage (V c main_arg0) (V c main_v66) (V c main_arg14) (V c main_arg15) (V c main_call3_v0)) :=
  (dat3 V c).arrAt_eq_of_cover 5 _ (fun t _ => flushed_eq V c t) cover

end Cert.KernelIdeal.Layer3

end
-- ==== Proof.Layer4.lean ====
/-
  Layer 4: one grid point takes 2000 consecutive rows of the node features and of the neighbour means, the two
  weight matrices and the bias row whole, and writes the 2000 corresponding rows of
  H·W + H'·W' + b.
  Row r of the result depends on row r of the two row-indexed operands only, so the 25 blocks together are that
  function of the whole arrays.
-/
import proofs.«114462_j4672924418435_1_alg».proof.Proof.Gen.KernelIdeal.Frame
import proofs.«114462_j4672924418435_1_alg».proof.Proof.Net
import Idealize.ShloMosaic.Lib.Pipeline.Value

set_option maxRecDepth 16384

noncomputable section

namespace Cert.KernelIdeal.Layer4

open Cert.KernelIdeal Cert.KernelIdeal.Gen Idealize.ShloMosaic Idealize.ShloMosaic.TcCoe Idealize.ShloMosaic.ValueIdx
open Idealize.SL.Sem Cert.Gcn Cert.Net Cert.Lib
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's stored value is the layer of the block's rows. -/
theorem pay (x0 x1 : FVec Ideal S2000x256 .f32) (x2 x3 : FVec Ideal S256x256 .f32) (x4 : FVec Ideal S1x256 .f32) :
    k4_pay1 x0 x2 x1 x3 x4 = sage x0 x1 x2 x3 x4 := by
  unfold k4_pay1
  dsimp only
  rw [show dot_S2000x256_S256x256_S2000x256_1_0_0_1_n_n = matDot dot_S2000x256_S256x256_S2000x256_1_0_0_1_n_n_wf from rfl]
  simp only [shapeCast_self (s := S2000x256)]
  rw [blockSage]

/-- The windows' index maps over the grid: the row-indexed windows move with the output, the others stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of the layer of the whole arrays. -/
theorem flushed_eq (c : Dev nD) (t : Fin cfg4.N) :
    (dat4 V c).flushed 5 t = ((cfg4.win 5).blk t).view.read (Elt Ideal)
      ((sage (V c main_v67) (V c main_v80) (V c main_arg17) (V c main_arg18) (V c main_call4_v0))) := by
  show (cfg4.win 5).cut (grid4.coords t) ((dat4 V c).after 5 t) = _
  rw [after4_5]
  unfold out4_5
  rw [View.canon_unit_zero hz]
  simp only [View.ld_unit_zero (S := S2000x256) hz, View.ld_unit_zero (S := S256x256) hz, View.ld_unit_zero (S := S1x256) hz]
  rw [pay]
  obtain ⟨e00, e01, e10, e11, e20, e21, e30, e31, e40, e41, e50, e51⟩ := idx_facts t
  funext j
  have hj0 : (j 0).val < 2000 := (j 0).isLt
  have hj1 : (j 1).val < 256 := (j 1).isLt
  refine (sage_at (V c main_v67) (V c main_v80) (V c main_arg17) (V c main_arg18) (V c main_call4_v0)
    (iblk4 V c 0 t) (iblk4 V c 1 t) (iblk4 V c 2 t) (iblk4 V c 3 t) (iblk4 V c 4 t) j
    (((cfg4.win 5).blk t).view.emb j) ?_ ?_ ?_ ?_ ?_)
  · intro k
    show V c main_v67 (((cfg4.win 0).blk t).view.emb (ix2 (j 0) k)) = _
    refine congrArg (V c main_v67) (funext fun a => Fin.ext ?_)
    match a with
    | ⟨0, _⟩ => show win4_0.index t (0 : Fin 2) * 2000 + 1 * (j 0).val = win4_5.index t (0 : Fin 2) * 2000 + 1 * (j 0).val; omega
    | ⟨1, _⟩ => show win4_0.index t (1 : Fin 2) * 256 + 1 * k.val = k.val; omega
  · intro k
    show V c main_v80 (((cfg4.win 1).blk t).view.emb (ix2 (j 0) k)) = _
    refine congrArg (V c main_v80) (funext fun a => Fin.ext ?_)
    match a with
    | ⟨0, _⟩ => show win4_1.index t (0 : Fin 2) * 2000 + 1 * (j 0).val = win4_5.index t (0 : Fin 2) * 2000 + 1 * (j 0).val; omega
    | ⟨1, _⟩ => show win4_1.index t (1 : Fin 2) * 256 + 1 * k.val = k.val; omega
  · intro k
    show V c main_arg17 (((cfg4.win 2).blk t).view.emb (ix2 k (j 1))) = _
    refine congrArg (V c main_arg17) (funext fun a => Fin.ext ?_)
    match a with
    | ⟨0, _⟩ => show win4_2.index t (0 : Fin 2) * 256 + 1 * k.val = k.val; omega
    | ⟨1, _⟩ => show win4_2.index t (1 : Fin 2) * 256 + 1 * (j 1).val = win4_5.index t (1 : Fin 2) * 256 + 1 * (j 1).val; omega
  · intro k
    show V c main_arg18 (((cfg4.win 3).blk t).view.emb (ix2 k (j 1))) = _
    refine congrArg (V c main_arg18) (funext fun a => Fin.ext ?_)
    match a with
    | ⟨0, _⟩ => show win4_3.index t (0 : Fin 2) * 256 + 1 * k.val = k.val; omega
    | ⟨1, _⟩ => show win4_3.index t (1 : Fin 2) * 256 + 1 * (j 1).val = win4_5.index t (1 : Fin 2) * 256 + 1 * (j 1).val; omega
  · show V c main_call4_v0 (((cfg4.win 4).blk t).view.emb (ix2 (0 : Fin 1) (j 1))) = _
    refine congrArg (V c main_call4_v0) (funext fun a => Fin.ext ?_)
    match a with
    | ⟨0, _⟩ => show win4_4.index t (0 : Fin 2) * 1 + 1 * 0 = 0; omega
    | ⟨1, _⟩ => show win4_4.index t (1 : Fin 2) * 256 + 1 * (j 1).val = win4_5.index t (1 : Fin 2) * 256 + 1 * (j 1).val; omega

/-- An index of the result is in point t's block iff each coordinate is in the block's range. -/
theorem mem_blk (t : Fin cfg4.N) (i : S50000x256.Idx) :
    i ∈ ((cfg4.win 5).blk t).view.set ↔ ∀ a : Fin 2, win4_5.index t a * S2000x256.size a ≤ (i a).val
      ∧ (i a).val < win4_5.index t a * S2000x256.size a + S2000x256.size a := by
  show i ∈ ((View.whole main_v81).slice (win4_5.rect t)).set ↔ _
  rw [View.set_slice_whole, Rect.mem_set_unit]
  exact Iff.rfl

/-- Row r lies in the block of point r / 2000. -/
theorem cover (i : S50000x256.Idx) :
    ∃ t : Fin cfg4.N, (cfg4.win 5).flush t = true ∧ i ∈ ((cfg4.win 5).blk t).view.set := by
  have hi0 : (i 0).val < 50000 := (i 0).isLt
  have hi1 : (i 1).val < 256 := (i 1).isLt
  have hN : grid4.N = 25 := N_4
  have ht : (i 0).val / 2000 < cfg4.N := by show (i 0).val / 2000 < grid4.N; omega
  obtain ⟨e00, e01, e10, e11, e20, e21, e30, e31, e40, e41, e50, e51⟩ := idx_facts ⟨(i 0).val / 2000, ht⟩
  refine ⟨⟨(i 0).val / 2000, ht⟩, flush4_5 _, ?_⟩
  rw [mem_blk]
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win4_5.index ⟨(i 0).val / 2000, ht⟩ (1 : Fin 2) * 256 ≤ (i 1).val
      ∧ (i 1).val < win4_5.index ⟨(i 0).val / 2000, ht⟩ (1 : Fin 2) * 256 + 256
    omega

/-- The result array after the region: the layer of the arrays the region found. -/
theorem out (c : Dev nD) : (dat4 V c).arrAt 5 cfg4.N
    = (sage (V c main_v67) (V c main_v80) (V c main_arg17) (V c main_arg18) (V c main_call4_v0)) :=
  (dat4 V c).arrAt_eq_of_cover 5 _ (fun t _ => flushed_eq V c t) cover

end Cert.KernelIdeal.Layer4

end
-- ==== Proof.Layer5.lean ====
/-
  The first head layer: one grid point takes 2000 consecutive rows of the joined embeddings, the weight matrix and
  the bias row whole, and writes the 2000 corresponding rows of X·W + b.  Row r of the result depends on row r of X
  only, so the 25 blocks together are that function of the whole arrays.
-/
import proofs.«114462_j4672924418435_1_alg».proof.Proof.Gen.KernelIdeal.Frame
import proofs.«114462_j4672924418435_1_alg».proof.Proof.Net
import Idealize.ShloMosaic.Lib.Pipeline.Value

set_option maxRecDepth 16384

noncomputable section

namespace Cert.KernelIdeal.Layer5

open Cert.KernelIdeal Cert.KernelIdeal.Gen Idealize.ShloMosaic Idealize.ShloMosaic.TcCoe Idealize.ShloMosaic.ValueIdx
open Idealize.SL.Sem Cert.Gcn Cert.Net Cert.Lib
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's stored value is the affine layer of the block's rows. -/
theorem pay (x0 : FVec Ideal S2000x512 .f32) (x1 : FVec Ideal S512x128 .f32) (x2 : FVec Ideal S1x128 .f32) :
    k5_pay1 x0 x1 x2 = affine x0 x1 x2 := by
  unfold k5_pay1
  dsimp only
  rw [show dot_S2000x512_S512x128_S2000x128_1_0_0_1_n_n = matDot dot_S2000x512_S512x128_S2000x128_1_0_0_1_n_n_wf from rfl]
  simp only [shapeCast_self (s := S2000x512)]
  rw [blockAffine]

/-- The windows' index maps over the grid (output first): the row-indexed windows move with the point, the others stay. -/
theorem idx_facts : ∀ t : Fin cfg5.N, win5_3.index t (1 : Fin 2) = 0 ∧ win5_0.index t (0 : Fin 2) = t.val
    ∧ win5_3.index t (0 : Fin 2) = t.val ∧ win5_3.index t (1 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- What point t writes back is block t of the layer of the whole arrays. -/
theorem flushed_eq (c : Dev nD) (t : Fin cfg5.N) :
    (dat5 V c).flushed 3 t = ((cfg5.win 3).blk t).view.read (Elt Ideal) (affine (V c main_v82) (V c main_arg20) (V c main_call5_v0)) := by
  show (cfg5.win 3).cut (grid5.coords t) ((dat5 V c).after 3 t) = _
  rw [after5_3]
  unfold out5_3
  rw [View.canon_unit_zero hz]
  simp only [View.ld_unit_zero (S := S2000x512) hz, View.ld_unit_zero (S := S512x128) hz, View.ld_unit_zero (S := S1x128) hz]
  rw [pay]
  obtain ⟨-, e00, e30, e31, e01, e10, e11, e20, e21⟩ := idx_facts t
  funext j
  have hj0 : (j 0).val < 2000 := (j 0).isLt
  have hj1 : (j 1).val < 128 := (j 1).isLt
  refine affine_at (V c main_v82) (V c main_arg20) (V c main_call5_v0)
    (iblk5 V c 0 t) (iblk5 V c 1 t) (iblk5 V c 2 t) j (((cfg5.win 3).blk t).view.emb j) ?_ ?_ ?_
  · intro k
    show V c main_v82 (((cfg5.win 0).blk t).view.emb (ix2 (j 0) k)) = _
    refine congrArg (V c main_v82) (funext fun a => Fin.ext ?_)
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 512 + 1 * k.val = k.val; omega
  · intro k
    show V c main_arg20 (((cfg5.win 1).blk t).view.emb (ix2 k (j 1))) = _
    refine congrArg (V c main_arg20) (funext fun a => Fin.ext ?_)
    match a with
    | ⟨0, _⟩ => show win5_1.index t (0 : Fin 2) * 512 + 1 * k.val = k.val; omega
    | ⟨1, _⟩ => show win5_1.index t (1 : Fin 2) * 128 + 1 * (j 1).val = win5_3.index t (1 : Fin 2) * 128 + 1 * (j 1).val; omega
  ·
    show V c main_call5_v0 (((cfg5.win 2).blk t).view.emb (ix2 (0 : Fin 1) (j 1))) = _
    refine congrArg (V c main_call5_v0) (funext fun a => Fin.ext ?_)
    match a with
    | ⟨0, _⟩ => show win5_2.index t (0 : Fin 2) * 1 + 1 * 0 = 0; omega
    | ⟨1, _⟩ => show win5_2.index t (1 : Fin 2) * 128 + 1 * (j 1).val = win5_3.index t (1 : Fin 2) * 128 + 1 * (j 1).val; omega

/-- An index of the result is in point t's block iff each coordinate is in the block's range. -/
theorem mem_blk (t : Fin cfg5.N) (i : S50000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v83).slice (win5_3.rect t)).set ↔ _
  rw [View.set_slice_whole, Rect.mem_set_unit]
  exact Iff.rfl

/-- Row r lies in the block of point r / 2000. -/
theorem cover (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : grid5.N = 25 := N_5
  have ht : (i 0).val / 2000 < cfg5.N := by show (i 0).val / 2000 < grid5.N; omega
  have e := idx_facts ⟨(i 0).val / 2000, ht⟩
  refine ⟨⟨(i 0).val / 2000, ht⟩, flush5_3 _, ?_⟩
  rw [mem_blk]
  intro a
  match a with
  | ⟨0, _⟩ =>
    show win5_3.index ⟨(i 0).val / 2000, ht⟩ (0 : Fin 2) * 2000 ≤ (i 0).val
      ∧ (i 0).val < win5_3.index ⟨(i 0).val / 2000, ht⟩ (0 : Fin 2) * 2000 + 2000
    rw [e.2.2.1]
    show (i 0).val / 2000 * 2000 ≤ (i 0).val ∧ (i 0).val < (i 0).val / 2000 * 2000 + 2000
    omega
  | ⟨1, _⟩ =>
    show win5_3.index ⟨(i 0).val / 2000, ht⟩ (1 : Fin 2) * 128 ≤ (i 1).val
      ∧ (i 1).val < win5_3.index ⟨(i 0).val / 2000, ht⟩ (1 : Fin 2) * 128 + 128
    have e1 := e.2.2.2.1
    omega

/-- The result array after the region: the layer of the arrays the region found. -/
theorem out (c : Dev nD) : (dat5 V c).arrAt 3 cfg5.N = affine (V c main_v82) (V c main_arg20) (V c main_call5_v0) :=
  (dat5 V c).arrAt_eq_of_cover 3 _ (fun t _ => flushed_eq V c t) cover

end Cert.KernelIdeal.Layer5

end
-- ==== Proof.Layer6.lean ====
/-
  The head: one grid point takes 2000 consecutive rows of the first head layer's result, the mean, inverse-deviation,
  scale and shift rows, the last weight matrix and its bias row whole, and writes the 2000 corresponding rows of
  max (γ·((x − μ)·s) + β) 0 · W + b.  Row r of the result depends on row r of x only, so the 25 blocks together are
  that function of the whole arrays.
-/
import proofs.«114462_j4672924418435_1_alg».proof.Proof.Gen.KernelIdeal.Frame
import proofs.«114462_j4672924418435_1_alg».proof.Proof.Net
import Idealize.ShloMosaic.Lib.Pipeline.Value

set_option maxRecDepth 16384

noncomputable section

namespace Cert.KernelIdeal.Layer6

open Cert.KernelIdeal Cert.KernelIdeal.Gen Idealize.ShloMosaic Idealize.ShloMosaic.TcCoe Idealize.ShloMosaic.ValueIdx
open Idealize.SL.Sem Cert.Gcn Cert.Net Cert.Lib
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's stored value is the head of the block's rows. -/
theorem pay (x0 : FVec Ideal S2000x128 .f32) (x1 x2 x3 x4 : FVec Ideal S1x128 .f32) (x5 : FVec Ideal S128x64 .f32)
    (x6 : FVec Ideal S1x64 .f32) : k6_pay1 x0 x1 x2 x3 x4 x5 x6 = bnHead x0 x1 x2 x3 x4 x5 x6 := by
  unfold k6_pay1
  dsimp only
  rw [show dot_S2000x128_S128x64_S2000x64_1_0_0_1_n_n = matDot dot_S2000x128_S128x64_S2000x64_1_0_0_1_n_n_wf from rfl]
  simp only [shapeCast_self (s := S2000x128)]
  rw [blockBnAct, blockAffine]
  rfl

/-- The windows' index maps over the grid (output first): the row-indexed windows move with the point, the others stay. -/
theorem idx_facts : ∀ t : Fin cfg6.N, win6_7.index t (1 : Fin 2) = 0 ∧ win6_0.index t (0 : Fin 2) = t.val
    ∧ win6_7.index t (0 : Fin 2) = t.val ∧ win6_7.index t (1 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- What point t writes back is block t of the head of the whole arrays. -/
theorem flushed_eq (c : Dev nD) (t : Fin cfg6.N) :
    (dat6 V c).flushed 7 t = ((cfg6.win 7).blk t).view.read (Elt Ideal) (bnHead (V c main_v83) (V c main_call6_v0) (V c main_call6_v1) (V c main_call6_v2) (V c main_call6_v3) (V c main_arg24) (V c main_call6_v4)) := by
  show (cfg6.win 7).cut (grid6.coords t) ((dat6 V c).after 7 t) = _
  rw [after6_7]
  unfold out6_7
  rw [View.canon_unit_zero hz]
  simp only [View.ld_unit_zero (S := S2000x128) hz, View.ld_unit_zero (S := S1x128) hz, View.ld_unit_zero (S := S128x64) hz,
    View.ld_unit_zero (S := S1x64) hz]
  rw [pay]
  obtain ⟨-, e00, e70, e71, e01, e10, e11, e20, e21, e30, e31, e40, e41, e50, e51, e60, e61⟩ := idx_facts t
  funext j
  have hj0 : (j 0).val < 2000 := (j 0).isLt
  have hj1 : (j 1).val < 64 := (j 1).isLt
  refine affine_at (bnAct (V c main_v83) (V c main_call6_v0) (V c main_call6_v1) (V c main_call6_v2) (V c main_call6_v3))
    (V c main_arg24) (V c main_call6_v4)
    (bnAct (iblk6 V c 0 t) (iblk6 V c 1 t) (iblk6 V c 2 t) (iblk6 V c 3 t) (iblk6 V c 4 t)) (iblk6 V c 5 t) (iblk6 V c 6 t)
    j (((cfg6.win 7).blk t).view.emb j) ?_ ?_ ?_
  · intro k
    refine bnAct_at (V c main_v83) (V c main_call6_v0) (V c main_call6_v1) (V c main_call6_v2) (V c main_call6_v3)
      (iblk6 V c 0 t) (iblk6 V c 1 t) (iblk6 V c 2 t) (iblk6 V c 3 t) (iblk6 V c 4 t) (ix2 (j 0) k)
      (ix2 ((((cfg6.win 7).blk t).view.emb j) 0) k) ?_ ?_ ?_ ?_ ?_
    ·
      show V c main_v83 (((cfg6.win 0).blk t).view.emb (ix2 (j 0) k)) = _
      refine congrArg (V c main_v83) (funext fun a => Fin.ext ?_)
      match a with
      | ⟨0, _⟩ => show win6_0.index t (0 : Fin 2) * 2000 + 1 * (j 0).val = win6_7.index t (0 : Fin 2) * 2000 + 1 * (j 0).val; omega
      | ⟨1, _⟩ => show win6_0.index t (1 : Fin 2) * 128 + 1 * k.val = k.val; omega
    ·
      show V c main_call6_v0 (((cfg6.win 1).blk t).view.emb (ix2 (0 : Fin 1) k)) = _
      refine congrArg (V c main_call6_v0) (funext fun a => Fin.ext ?_)
      match a with
      | ⟨0, _⟩ => show win6_1.index t (0 : Fin 2) * 1 + 1 * 0 = 0; omega
      | ⟨1, _⟩ => show win6_1.index t (1 : Fin 2) * 128 + 1 * k.val = k.val; omega
    ·
      show V c main_call6_v1 (((cfg6.win 2).blk t).view.emb (ix2 (0 : Fin 1) k)) = _
      refine congrArg (V c main_call6_v1) (funext fun a => Fin.ext ?_)
      match a with
      | ⟨0, _⟩ => show win6_2.index t (0 : Fin 2) * 1 + 1 * 0 = 0; omega
      | ⟨1, _⟩ => show win6_2.index t (1 : Fin 2) * 128 + 1 * k.val = k.val; omega
    ·
      show V c main_call6_v2 (((cfg6.win 3).blk t).view.emb (ix2 (0 : Fin 1) k)) = _
      refine congrArg (V c main_call6_v2) (funext fun a => Fin.ext ?_)
      match a with
      | ⟨0, _⟩ => show win6_3.index t (0 : Fin 2) * 1 + 1 * 0 = 0; omega
      | ⟨1, _⟩ => show win6_3.index t (1 : Fin 2) * 128 + 1 * k.val = k.val; omega
    ·
      show V c main_call6_v3 (((cfg6.win 4).blk t).view.emb (ix2 (0 : Fin 1) k)) = _
      refine congrArg (V c main_call6_v3) (funext fun a => Fin.ext ?_)
      match a with
      | ⟨0, _⟩ => show win6_4.index t (0 : Fin 2) * 1 + 1 * 0 = 0; omega
      | ⟨1, _⟩ => show win6_4.index t (1 : Fin 2) * 128 + 1 * k.val = k.val; omega
  · intro k
    show V c main_arg24 (((cfg6.win 5).blk t).view.emb (ix2 k (j 1))) = _
    refine congrArg (V c main_arg24) (funext fun a => Fin.ext ?_)
    match a with
    | ⟨0, _⟩ => show win6_5.index t (0 : Fin 2) * 128 + 1 * k.val = k.val; omega
    | ⟨1, _⟩ => show win6_5.index t (1 : Fin 2) * 64 + 1 * (j 1).val = win6_7.index t (1 : Fin 2) * 64 + 1 * (j 1).val; omega
  ·
    show V c main_call6_v4 (((cfg6.win 6).blk t).view.emb (ix2 (0 : Fin 1) (j 1))) = _
    refine congrArg (V c main_call6_v4) (funext fun a => Fin.ext ?_)
    match a with
    | ⟨0, _⟩ => show win6_6.index t (0 : Fin 2) * 1 + 1 * 0 = 0; omega
    | ⟨1, _⟩ => show win6_6.index t (1 : Fin 2) * 64 + 1 * (j 1).val = win6_7.index t (1 : Fin 2) * 64 + 1 * (j 1).val; omega

/-- An index of the result is in point t's block iff each coordinate is in the block's range. -/
theorem mem_blk (t : Fin cfg6.N) (i : S50000x64.Idx) :
    i ∈ ((cfg6.win 7).blk t).view.set ↔ ∀ a : Fin 2, win6_7.index t a * S2000x64.size a ≤ (i a).val
      ∧ (i a).val < win6_7.index t a * S2000x64.size a + S2000x64.size a := by
  show i ∈ ((View.whole main_v97).slice (win6_7.rect t)).set ↔ _
  rw [View.set_slice_whole, Rect.mem_set_unit]
  exact Iff.rfl

/-- Row r lies in the block of point r / 2000. -/
theorem cover (i : S50000x64.Idx) :
    ∃ t : Fin cfg6.N, (cfg6.win 7).flush t = true ∧ i ∈ ((cfg6.win 7).blk t).view.set := by
  have hi0 : (i 0).val < 50000 := (i 0).isLt
  have hi1 : (i 1).val < 64 := (i 1).isLt
  have hN : grid6.N = 25 := N_6
  have ht : (i 0).val / 2000 < cfg6.N := by show (i 0).val / 2000 < grid6.N; omega
  have e := idx_facts ⟨(i 0).val / 2000, ht⟩
  refine ⟨⟨(i 0).val / 2000, ht⟩, flush6_7 _, ?_⟩
  rw [mem_blk]
  intro a
  match a with
  | ⟨0, _⟩ =>
    show win6_7.index ⟨(i 0).val / 2000, ht⟩ (0 : Fin 2) * 2000 ≤ (i 0).val
      ∧ (i 0).val < win6_7.index ⟨(i 0).val / 2000, ht⟩ (0 : Fin 2) * 2000 + 2000
    rw [e.2.2.1]
    show (i 0).val / 2000 * 2000 ≤ (i 0).val ∧ (i 0).val < (i 0).val / 2000 * 2000 + 2000
    omega
  | ⟨1, _⟩ =>
    show win6_7.index ⟨(i 0).val / 2000, ht⟩ (1 : Fin 2) * 64 ≤ (i 1).val
      ∧ (i 1).val < win6_7.index ⟨(i 0).val / 2000, ht⟩ (1 : Fin 2) * 64 + 64
    have e1 := e.2.2.2.1
    omega

/-- The result array after the region: the layer of the arrays the region found. -/
theorem out (c : Dev nD) : (dat6 V c).arrAt 7 cfg6.N = bnHead (V c main_v83) (V c main_call6_v0) (V c main_call6_v1) (V c main_call6_v2) (V c main_call6_v3) (V c main_arg24) (V c main_call6_v4) :=
  (dat6 V c).arrAt_eq_of_cover 7 _ (fun t _ => flushed_eq V c t) cover

end Cert.KernelIdeal.Layer6

end
-- ==== Proof.Stages.lean ====
/-
  The program's result, boundary by boundary.  Between two regions the host operations gather the rows of the
  previous layer along the edges, add them up per target node and divide by the degree (at least one); each region
  is a dense layer of what it finds.  So the buffers that matter hold, one after the other, exactly the values the
  reference computes for the same layers: the first to third local layers, the first and second global layers, the
  joined embeddings, the first head layer, its batch mean and inverse deviation, and the head.
-/
import proofs.«114462_j4672924418435_1_alg».proof.Proof.Gen.KernelIdeal.Frame
import proofs.«114462_j4672924418435_1_alg».proof.Proof.Gen.ReferenceIdeal.Read
import proofs.«114462_j4672924418435_1_alg».proof.Proof.Net
import proofs.«114462_j4672924418435_1_alg».proof.Proof.RefLayers
import proofs.«114462_j4672924418435_1_alg».proof.Proof.Layer0
import proofs.«114462_j4672924418435_1_alg».proof.Proof.Layer1
import proofs.«114462_j4672924418435_1_alg».proof.Proof.Layer2
import proofs.«114462_j4672924418435_1_alg».proof.Proof.Layer3
import proofs.«114462_j4672924418435_1_alg».proof.Proof.Layer4
import proofs.«114462_j4672924418435_1_alg».proof.Proof.Layer5
import proofs.«114462_j4672924418435_1_alg».proof.Proof.Layer6
import Idealize.ShloMosaic.Lib.StableHlo.Run

set_option maxRecDepth 16384
set_option maxHeartbeats 4000000

noncomputable section

namespace Cert.KernelIdeal.Stages

open Cert.KernelIdeal Cert.KernelIdeal.Gen Idealize.ShloMosaic Idealize.ShloMosaic.TcCoe Idealize.ShloMosaic.ValueIdx
open Idealize.SL.Sem Idealize.ShloMosaic.StableHlo Cert.Gcn Cert.Net Cert.Lib
open Cert.ReferenceIdeal.Read (val_main_v18 val_main_v25 val_main_v44 val_main_v51 val_main_v70 val_main_v76 val_main_v95
  val_main_v102 val_main_v121 val_main_v127 val_main_v128 val_main_v132 val_main_v135 val_main_v151 val_main_v162)

variable (m : (ℓ : Loc nD τ sig) → Buf (Elt Ideal) ℓ) (ρ : Dev nD → PrngReg) (c : Dev nD)

set_option quotPrecheck false

local notation "a0" => (m ((c.tc : Thread nD τ).loc main_arg0))
local notation "a1" => (m ((c.tc : Thread nD τ).loc main_arg1))
local notation "a2" => (m ((c.tc : Thread nD τ).loc main_arg2))
local notation "a3" => (m ((c.tc : Thread nD τ).loc main_arg3))
local notation "a4" => (m ((c.tc : Thread nD τ).loc main_arg4))
local notation "a5" => (m ((c.tc : Thread nD τ).loc main_arg5))
local notation "a6" => (m ((c.tc : Thread nD τ).loc main_arg6))
local notation "a7" => (m ((c.tc : Thread nD τ).loc main_arg7))
local notation "a8" => (m ((c.tc : Thread nD τ).loc main_arg8))
local notation "a9" => (m ((c.tc : Thread nD τ).loc main_arg9))
local notation "a10" => (m ((c.tc : Thread nD τ).loc main_arg10))
local notation "a11" => (m ((c.tc : Thread nD τ).loc main_arg11))
local notation "a12" => (m ((c.tc : Thread nD τ).loc main_arg12))
local notation "a13" => (m ((c.tc : Thread nD τ).loc main_arg13))
local notation "a14" => (m ((c.tc : Thread nD τ).loc main_arg14))
local notation "a15" => (m ((c.tc : Thread nD τ).loc main_arg15))
local notation "a16" => (m ((c.tc : Thread nD τ).loc main_arg16))
local notation "a17" => (m ((c.tc : Thread nD τ).loc main_arg17))
local notation "a18" => (m ((c.tc : Thread nD τ).loc main_arg18))
local notation "a19" => (m ((c.tc : Thread nD τ).loc main_arg19))
local notation "a20" => (m ((c.tc : Thread nD τ).loc main_arg20))
local notation "a21" => (m ((c.tc : Thread nD τ).loc main_arg21))
local notation "a22" => (m ((c.tc : Thread nD τ).loc main_arg22))
local notation "a23" => (m ((c.tc : Thread nD τ).loc main_arg23))
local notation "a24" => (m ((c.tc : Thread nD τ).loc main_arg24))
local notation "a25" => (m ((c.tc : Thread nD τ).loc main_arg25))

/-! ## A buffer no region's window touches is, after the region, what it was before -/

theorem W3_ne' (b : Ref sig .tc) (hb : ∀ w, Pipeline.arrRef spec0 w ≠ b) :
    W3 m ρ c (no_index (Proc.devRef .tc b)) = W2 m ρ c (Proc.devRef .tc b) := W3_of_ne m ρ c b hb
theorem W6_ne' (b : Ref sig .tc) (hb : ∀ w, Pipeline.arrRef spec1 w ≠ b) :
    W6 m ρ c (no_index (Proc.devRef .tc b)) = W5 m ρ c (Proc.devRef .tc b) := W6_of_ne m ρ c b hb
theorem W9_ne' (b : Ref sig .tc) (hb : ∀ w, Pipeline.arrRef spec2 w ≠ b) :
    W9 m ρ c (no_index (Proc.devRef .tc b)) = W8 m ρ c (Proc.devRef .tc b) := W9_of_ne m ρ c b hb
theorem W12_ne' (b : Ref sig .tc) (hb : ∀ w, Pipeline.arrRef spec3 w ≠ b) :
    W12 m ρ c (no_index (Proc.devRef .tc b)) = W11 m ρ c (Proc.devRef .tc b) := W12_of_ne m ρ c b hb
theorem W15_ne' (b : Ref sig .tc) (hb : ∀ w, Pipeline.arrRef spec4 w ≠ b) :
    W15 m ρ c (no_index (Proc.devRef .tc b)) = W14 m ρ c (Proc.devRef .tc b) := W15_of_ne m ρ c b hb
theorem W18_ne' (b : Ref sig .tc) (hb : ∀ w, Pipeline.arrRef spec5 w ≠ b) :
    W18 m ρ c (no_index (Proc.devRef .tc b)) = W17 m ρ c (Proc.devRef .tc b) := W18_of_ne m ρ c b hb
/-- The node features are an input window of the first region: it leaves them as it found them. -/
theorem W3_arg0 : W3 m ρ c (no_index (Proc.devRef .tc main_arg0)) = W2 m ρ c (Proc.devRef .tc main_arg0) :=
  (W3_arr m ρ c 0).trans (((dat0 (V2 m ρ) c).arrAt_in 0 rfl _).trans (A_eq0 (V2 m ρ) c 0))

/-- Read a buffer back through the host stretches and the regions that do not write it. -/
macro "back" : tactic =>
  `(tactic| simp (disch := decide) only [V2, V5, V8, V11, V14, V17, V20, W0, W1, W2, W4, W5, W7, W8, W10, W11, W13, W14, W16, W17,
      W19, W20, hostOps0, hostOps0_1, hostOps1, hostOps1_1, hostOps2, hostOps2_1, hostOps3, hostOps3_1, hostOps4, hostOps4_1, hostOps5, hostOps5_1, hostOps6, hostOps6_1,
      after_cons, after_nil, nullary_result', unary_result', binary_result', ternary_result', quaternary_result', reshape_result',
      nullary_result_ne', unary_result_ne', binary_result_ne', ternary_result_ne', quaternary_result_ne', reshape_result_ne',
      W3_ne', W6_ne', W9_ne', W12_ne', W15_ne', W18_ne', W3_arg0])

/-! ## The stages -/

/-- After the first region: the first local layer. -/
theorem local1 : W3 m ρ c (Proc.devRef .tc main_v25) = val_main_v25 (F := Ideal) a0 a1 a2 a5 a6 a7 := by
  refine (W3_arr m ρ c 5).trans ?_
  rw [Layer0.out, Cert.ReferenceIdeal.Layers.local1]
  have h0 : V2 m ρ c main_arg0 = a0 := by back
  have h1 : V2 m ρ c main_v24 = val_main_v18 (F := Ideal) a0 a1 a2 := by back; rfl
  have h2 : V2 m ρ c main_arg5 = a5 := by back
  have h3 : V2 m ρ c main_arg6 = a6 := by back
  have h4 : V2 m ρ c main_call0_v0 = asRow a7 := by back; exact shapeCast_eq_asRow _ _
  rw [h0, h1, h2, h3, h4]

/-- After the second region: the second local layer. -/
theorem local2 : W6 m ρ c (Proc.devRef .tc main_v39) = val_main_v51 (F := Ideal) a0 a1 a2 a5 a6 a7 a8 a9 a10 := by
  refine (W6_arr m ρ c 5).trans ?_
  rw [Layer1.out, Cert.ReferenceIdeal.Layers.local2]
  have h0 : V5 m ρ c main_v25 = val_main_v25 (F := Ideal) a0 a1 a2 a5 a6 a7 := by back; exact local1 m ρ c
  have h1 : V5 m ρ c main_v38 = val_main_v44 (F := Ideal) a0 a1 a2 a5 a6 a7 := by back; rw [local1 m ρ c]; rfl
  have h2 : V5 m ρ c main_arg8 = a8 := by back
  have h3 : V5 m ρ c main_arg9 = a9 := by back
  have h4 : V5 m ρ c main_call1_v0 = asRow a10 := by back; exact shapeCast_eq_asRow _ _
  rw [h0, h1, h2, h3, h4]

/-- After the third region: the third local layer, the local embedding. -/
theorem local3 : W9 m ρ c (Proc.devRef .tc main_v53) = val_main_v76 (F := Ideal) a0 a1 a2 a5 a6 a7 a8 a9 a10 a11 a12 a13 := by
  refine (W9_arr m ρ c 5).trans ?_
  rw [Layer2.out, Cert.ReferenceIdeal.Layers.local3]
  have h0 : V8 m ρ c main_v39 = val_main_v51 (F := Ideal) a0 a1 a2 a5 a6 a7 a8 a9 a10 := by back; exact local2 m ρ c
  have h1 : V8 m ρ c main_v52 = val_main_v70 (F := Ideal) a0 a1 a2 a5 a6 a7 a8 a9 a10 := by back; rw [local2 m ρ c]; rfl
  have h2 : V8 m ρ c main_arg11 = a11 := by back
  have h3 : V8 m ρ c main_arg12 = a12 := by back
  have h4 : V8 m ρ c main_call2_v0 = asRow a13 := by back; exact shapeCast_eq_asRow _ _
  rw [h0, h1, h2, h3, h4]

/-- After the fourth region: the first global layer. -/
theorem global1 : W12 m ρ c (Proc.devRef .tc main_v67) = val_main_v102 (F := Ideal) a0 a3 a4 a14 a15 a16 := by
  refine (W12_arr m ρ c 5).trans ?_
  rw [Layer3.out, Cert.ReferenceIdeal.Layers.global1]
  have h0 : V11 m ρ c main_arg0 = a0 := by back
  have h1 : V11 m ρ c main_v66 = val_main_v95 (F := Ideal) a0 a3 a4 := by back; rfl
  have h2 : V11 m ρ c main_arg14 = a14 := by back
  have h3 : V11 m ρ c main_arg15 = a15 := by back
  have h4 : V11 m ρ c main_call3_v0 = asRow a16 := by back; exact shapeCast_eq_asRow _ _
  rw [h0, h1, h2, h3, h4]

/-- After the fifth region: the second global layer, the global embedding. -/
theorem global2 : W15 m ρ c (Proc.devRef .tc main_v81) = val_main_v127 (F := Ideal) a0 a3 a4 a14 a15 a16 a17 a18 a19 := by
  refine (W15_arr m ρ c 5).trans ?_
  rw [Layer4.out, Cert.ReferenceIdeal.Layers.global2]
  have h0 : V14 m ρ c main_v67 = val_main_v102 (F := Ideal) a0 a3 a4 a14 a15 a16 := by back; exact global1 m ρ c
  have h1 : V14 m ρ c main_v80 = val_main_v121 (F := Ideal) a0 a3 a4 a14 a15 a16 := by back; rw [global1 m ρ c]; rfl
  have h2 : V14 m ρ c main_arg17 = a17 := by back
  have h3 : V14 m ρ c main_arg18 = a18 := by back
  have h4 : V14 m ρ c main_call4_v0 = asRow a19 := by back; exact shapeCast_eq_asRow _ _
  rw [h0, h1, h2, h3, h4]

/-- After the sixth region: the first head layer of the joined embeddings. -/
theorem head1 : W18 m ρ c (Proc.devRef .tc main_v83) = val_main_v132 (F := Ideal) a0 a1 a2 a3 a4 a5 a6 a7 a8 a9 a10 a11 a12 a13 a14 a15 a16 a17 a18 a19 a20 a21 := by
  refine (W18_arr m ρ c 3).trans ?_
  rw [Layer5.out, Cert.ReferenceIdeal.Layers.head1]
  have e53 : W15 m ρ c (Proc.devRef .tc main_v53) = val_main_v76 (F := Ideal) a0 a1 a2 a5 a6 a7 a8 a9 a10 a11 a12 a13 := by
    back; exact local3 m ρ c
  have h0 : V17 m ρ c main_v82 = val_main_v128 (F := Ideal) a0 a1 a2 a3 a4 a5 a6 a7 a8 a9 a10 a11 a12 a13 a14 a15 a16 a17 a18 a19 := by
    back; rw [e53, global2 m ρ c]; rfl
  have h1 : V17 m ρ c main_arg20 = a20 := by back
  have h2 : V17 m ρ c main_call5_v0 = asRow a21 := by back; exact shapeCast_eq_asRow _ _
  rw [h0, h1, h2]

/-- After the last region: the head, normalised with the batch mean and inverse deviation of the first head layer. -/
theorem head : W21 m ρ c (Proc.devRef .tc main_v97) = val_main_v162 (F := Ideal) a0 a1 a2 a3 a4 a5 a6 a7 a8 a9 a10 a11 a12 a13 a14 a15 a16 a17 a18 a19 a20 a21 a22 a23 a24 a25 := by
  refine (W21_arr m ρ c 7).trans ?_
  rw [Layer6.out, Cert.ReferenceIdeal.Layers.head2]
  have h0 : V20 m ρ c main_v83 = val_main_v132 (F := Ideal) a0 a1 a2 a3 a4 a5 a6 a7 a8 a9 a10 a11 a12 a13 a14 a15 a16 a17 a18 a19 a20 a21 := by back; exact head1 m ρ c
  have h1 : V20 m ρ c main_call6_v0 = asRow (val_main_v135 (F := Ideal) a0 a1 a2 a3 a4 a5 a6 a7 a8 a9 a10 a11 a12 a13 a14 a15 a16 a17 a18 a19 a20 a21) := by
    back; rw [head1 m ρ c]; exact shapeCast_eq_asRow _ _
  have h2 : V20 m ρ c main_call6_v1 = asRow (val_main_v151 (F := Ideal) a0 a1 a2 a3 a4 a5 a6 a7 a8 a9 a10 a11 a12 a13 a14 a15 a16 a17 a18 a19 a20 a21) := by
    back; rw [head1 m ρ c]; exact shapeCast_eq_asRow _ _
  have h3 : V20 m ρ c main_call6_v2 = asRow a22 := by back; exact shapeCast_eq_asRow _ _
  have h4 : V20 m ρ c main_call6_v3 = asRow a23 := by back; exact shapeCast_eq_asRow _ _
  have h5 : V20 m ρ c main_arg24 = a24 := by back
  have h6 : V20 m ρ c main_call6_v4 = asRow a25 := by back; exact shapeCast_eq_asRow _ _
  rw [h0, h1, h2, h3, h4, h5, h6]

end Cert.KernelIdeal.Stages

end
-- ==== Proof.lean ====
/-
  The certificate of the two-graph network: three local and two global aggregation layers, each a dense layer of a
  node's features and the mean of its neighbours' features, the two embeddings joined, a linear layer, batch
  normalisation with the batch's own mean and variance, the rectifier and a last linear layer.

  The kernel computes the seven dense layers in seven tiled regions, 2000 rows at a time, and everything else (the
  degrees, the gather along the edges, the per-node sums, the division by the degree, the join, the batch mean and
  inverse deviation) with the host operations the reference uses too.  On the extended reals a tiled layer is the
  whole-array layer (a row of the result depends on that row of the row-indexed operands only; narrowing the
  operands of the matrix unit is the identity), and the only difference in arithmetic is the grouping of the three
  factors γ·(x − μ)·s of the normalisation, which associativity of the product settles.  No finiteness is used.

  * the frames of the two kernel programs are the generated frame certificates, the reference's its generated run;
  * nothing was rewritten on the way to the idealised kernel, so there is nothing to preserve;
  * the result: the program's run names the result buffer's final contents (Proof/Whole.lean); boundary by
    boundary those contents are the reference's values for the same layers (Proof/Stages.lean over the layers of
    Proof/Layer0 … Layer6, Proof/RefLayers.lean and Proof/Net.lean).
-/
import proofs.«114462_j4672924418435_1_alg».proof.Defs
import proofs.«114462_j4672924418435_1_alg».proof.Proof.Gen.Kernel
import proofs.«114462_j4672924418435_1_alg».proof.Proof.Gen.Kernel.Skeleton
import proofs.«114462_j4672924418435_1_alg».proof.Proof.Gen.Kernel.Launch
import proofs.«114462_j4672924418435_1_alg».proof.Proof.Gen.Kernel.Points
import proofs.«114462_j4672924418435_1_alg».proof.Proof.Gen.Kernel.Frame
import proofs.«114462_j4672924418435_1_alg».proof.Proof.Gen.KernelIdeal
import proofs.«114462_j4672924418435_1_alg».proof.Proof.Gen.KernelIdeal.Skeleton
import proofs.«114462_j4672924418435_1_alg».proof.Proof.Gen.KernelIdeal.Launch
import proofs.«114462_j4672924418435_1_alg».proof.Proof.Gen.KernelIdeal.Points
import proofs.«114462_j4672924418435_1_alg».proof.Proof.Gen.KernelIdeal.Frame
import proofs.«114462_j4672924418435_1_alg».proof.Proof.Gen.ReferenceIdeal
import proofs.«114462_j4672924418435_1_alg».proof.Proof.Gen.ReferenceIdeal.Run
import proofs.«114462_j4672924418435_1_alg».proof.Proof.Gen.ReferenceIdeal.Read
import proofs.«114462_j4672924418435_1_alg».proof.Proof.Gen.Pre_finite_inputs
import proofs.«114462_j4672924418435_1_alg».proof.Proof.Whole
import proofs.«114462_j4672924418435_1_alg».proof.Proof.Stages
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the head of the network of the launched arguments. -/
theorem algebraic : Cert.algebraic_KernelIdeal_ReferenceIdeal := by
  intro m ρ m' ρ' _ hagree
  refine ⟨fun c => Cert.ReferenceIdeal.Read.val_main_v162 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22))
    (m ((c.tc : Thread Cert.KernelIdeal.nD Cert.KernelIdeal.τ).loc Cert.KernelIdeal.main_arg23))
    (m ((c.tc : Thread Cert.KernelIdeal.nD Cert.KernelIdeal.τ).loc Cert.KernelIdeal.main_arg24))
    (m ((c.tc : Thread Cert.KernelIdeal.nD Cert.KernelIdeal.τ).loc Cert.KernelIdeal.main_arg25)), ?_, ?_⟩
  · exact (θ_run Cert.KernelIdeal.defs _ _).mono
      (fun r h c => ⟨(h c).1.trans (Cert.KernelIdeal.Stages.head m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v162_eq]
    obtain ⟨e0, e1, e2, e3, e4, e5, e6, e7, e8, e9, e10, e11, e12, e13, e14, e15, e16, e17, e18, e19, e20, e21, e22, e23, e24, e25⟩ := hagree c
    rw [e0, e1, e2, e3, e4, e5, e6, e7, e8, e9, e10, e11, e12, e13, e14, e15, e16, e17, e18, e19, e20, e21, e22, e23, e24, e25]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
